-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S128x256 : Shape := ⟨2, ![128, 256]⟩
abbrev S128x128 : Shape := ⟨2, ![128, 128]⟩
abbrev S128 : Shape := ⟨1, ![128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x256 .f32) (main_arg1 : IVec S2x1600000 32) (main_arg2 : FVec F S128x256 .f32) (main_arg3 : FVec F S128x128 .f32) (main_arg4 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x256 : Shape := ⟨2, ![100000, 256]⟩
abbrev S2x1600000 : Shape := ⟨2, ![2, 1600000]⟩
abbrev S128x256 : Shape := ⟨2, ![128, 256]⟩
abbrev S128x128 : Shape := ⟨2, ![128, 128]⟩
abbrev S128 : Shape := ⟨1, ![128]⟩
abbrev S256x128 : Shape := ⟨2, ![256, 128]⟩
abbrev S100000x128 : Shape := ⟨2, ![100000, 128]⟩
abbrev S4000x256 : Shape := ⟨2, ![4000, 256]⟩
abbrev S4000x128 : Shape := ⟨2, ![4000, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1700000x128 : Shape := ⟨2, ![1700000, 128]⟩
abbrev S5000x128 : Shape := ⟨2, ![5000, 128]⟩
abbrev S5000x1 : Shape := ⟨2, ![5000, 1]⟩
abbrev S1x128 : Shape := ⟨2, ![1, 128]⟩
abbrev S5000 : Shape := ⟨1, ![5000]⟩

abbrev nBuf : Space → Nat
  | .hbm => 51
  | .vmem => 12
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S128x256, .f32⟩
  | .hbm, ⟨3, _⟩ => ⟨S128x128, .f32⟩
  | .hbm, ⟨4, _⟩ => ⟨S128, .f32⟩
  | .hbm, ⟨5, _⟩ => ⟨S256x128, .f32⟩
  | .hbm, ⟨6, _⟩ => ⟨S128x128, .f32⟩
  | .hbm, ⟨7, _⟩ => ⟨S256x128, .f32⟩
  | .hbm, ⟨8, _⟩ => ⟨S100000x128, .bf16⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x128, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S100000x128, .bf16⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000x128, .bf16⟩
  | .hbm, ⟨44, _⟩ => ⟨S1700000x128, .f32⟩
  | .hbm, ⟨45, _⟩ => ⟨S_, .f32⟩
  | .hbm, ⟨46, _⟩ => ⟨S100000x128, .f32⟩
  | .hbm, ⟨47, _⟩ => ⟨S1700000x1, .i32⟩
  | .hbm, ⟨48, _⟩ => ⟨S100000x128, .f32⟩
  | .hbm, ⟨49, _⟩ => ⟨S100000x1, .f32⟩
  | .hbm, ⟨50, _⟩ => ⟨S100000x128, .f32⟩
  | .local _ .vmem, ⟨0, _⟩ => ⟨S4000x256, .f32⟩
  | .local _ .vmem, ⟨1, _⟩ => ⟨S4000x256, .f32⟩
  | .local _ .vmem, ⟨2, _⟩ => ⟨S256x128, .f32⟩
  | .local _ .vmem, ⟨3, _⟩ => ⟨S4000x128, .bf16⟩
  | .local _ .vmem, ⟨4, _⟩ => ⟨S4000x128, .bf16⟩
  | .local _ .vmem, ⟨5, _⟩ => ⟨S5000x128, .f32⟩
  | .local _ .vmem, ⟨6, _⟩ => ⟨S5000x128, .f32⟩
  | .local _ .vmem, ⟨7, _⟩ => ⟨S5000x1, .f32⟩
  | .local _ .vmem, ⟨8, _⟩ => ⟨S5000x1, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c : Ref sig .tc := ⟨.hbm, 35, rfl⟩
abbrev main_v24 : Ref sig .tc := ⟨.hbm, 36, rfl⟩
abbrev main_v25 : Ref sig .tc := ⟨.hbm, 37, rfl⟩
abbrev main_c_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S128x256_S256x128_1_0 : S128x256.Transposes [1, 0] S256x128
  transposes_S128x128_S128x128_1_0 : S128x128.Transposes [1, 0] S128x128
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reduces_S5000x128_S5000 : S5000x128.Reduces [1] S5000
  shapeCasts_S5000_S5000x1 : S5000.ShapeCasts S5000x1
  dot_S256x128_S128x128_S256x128_1_0_0_1_n_n_wf : DotDims.WF S256x128 S128x128 S256x128 [1] [0] [0] [1] [] []
  dot_S4000x256_S256x128_S4000x128_1_0_0_1_n_n_wf : DotDims.WF S4000x256 S256x128 S4000x128 [1] [0] [0] [1] [] []
  scatter_S100000_S1700000x1_S1700000_n_0_0_1_wf : ScatterDims.WF S100000 S1700000x1 S1700000 [] [0] [0] 1
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .bf16 = 32 ∨ (Rect.block (s := S100000x128) S4000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)

variable [Facts₀]

def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v34) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S128x256 : Shape := ⟨2, ![128, 256]⟩
abbrev S128x128 : Shape := ⟨2, ![128, 128]⟩
abbrev S128 : Shape := ⟨1, ![128]⟩
abbrev S256x128 : Shape := ⟨2, ![256, 128]⟩
abbrev S100000x128 : Shape := ⟨2, ![100000, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩

abbrev nBuf : Space → Nat
  | .hbm => 78
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S128x256, .f32⟩
  | .hbm, ⟨3, _⟩ => ⟨S128x128, .f32⟩
  | .hbm, ⟨4, _⟩ => ⟨S128, .f32⟩
  | .hbm, ⟨5, _⟩ => ⟨S256x128, .f32⟩
  | .hbm, ⟨6, _⟩ => ⟨S100000x128, .f32⟩
  | .hbm, ⟨7, _⟩ => ⟨S128x128, .f32⟩
  | .hbm, ⟨8, _⟩ => ⟨S100000x128, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000, .f32⟩
  | .hbm, ⟨71, _⟩ => ⟨S100000x1, .f32⟩
  | .hbm, ⟨72, _⟩ => ⟨S100000x1, .f32⟩
  | .hbm, ⟨73, _⟩ => ⟨S_, .f32⟩
  | .hbm, ⟨74, _⟩ => ⟨S100000x1, .f32⟩
  | .hbm, ⟨75, _⟩ => ⟨S100000x1, .f32⟩
  | .hbm, ⟨76, _⟩ => ⟨S100000x128, .f32⟩
  | .hbm, ⟨77, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_4 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]

class Facts₀ : Prop where
  transposes_S128x256_S256x128_1_0 : S128x256.Transposes [1, 0] S256x128
  transposes_S128x128_S128x128_1_0 : S128x128.Transposes [1, 0] S128x128
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.RunValue.lean ====
/-
  The whole program's run with its result named.  The program is six segments: three host operations (the two
  weight matrices transposed and multiplied), the projection region, three stretches of host operations (degrees and
  weights, the gather of source rows, the scatter-add over targets), and the finalize region.  The contents of every
  buffer at each segment boundary are a fold through the segments from the launch memory; every execution terminates,
  faults nowhere, and ends with every buffer at the last fold — here read at the result array and at the arguments.
-/
import proofs.«125581_j45122926412247_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the whole program ends, without a fault, with the result array holding what the
    second region's write-backs leave (the last fold at the result's reference) and the five argument arrays as
    launched (no segment writes an argument). -/
theorem run : θ_run defs (onTc (τ := τ) (main (F := F))) ⟨m, fun _ => 0, ρ⟩ (fun r => ∀ c : Dev nD,
      r.2.mem ((c.tc : Thread nD τ).loc main_v36) = W6 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v36 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.KernelIdeal.RunValue

end
-- ==== Proof.Spec.lean ====
/-
  The mathematics both programs compute, as plain functions on the extended reals, index by index.

  A graph has 100000 nodes, each with a feature row of 256 numbers, and 1700000 directed edges (the 1600000 given ones
  followed by one self-loop per node).  A node's features are projected to 128 numbers by a 256 × 128 matrix
  (`proj`); every node is weighted by `dinv = 1 / sqrt (in-degree)`; a node's message sum adds, over the edges that
  end in it, the source's projected row times the two end points' weights; a bias row is added; and each row is
  divided by its Euclidean norm, clamped from below (`normalize`).
  The kernel multiplies by the target's weight after the summation (`finalize`), the reference before it: the two
  agree because the weight is a real number and multiplication by a real distributes over a finite sum of reals.
-/
import Idealize.ShloMosaic.PureOps.Ideal
import Idealize.ShloMosaic.Lib.ValueIdx

noncomputable section

open scoped BigOperators

namespace Cert.Spec

open Idealize.ShloMosaic Idealize.ShloMosaic.ValueIdx

/-- Node features, 100000 rows of 256. -/
abbrev SN256 : Shape := ⟨2, ![100000, 256]⟩
/-- The projection matrix, 256 × 128. -/
abbrev S256x128 : Shape := ⟨2, ![256, 128]⟩
/-- One row of 128 per node. -/
abbrev SN128 : Shape := ⟨2, ![100000, 128]⟩
/-- One number per node, kept as a column. -/
abbrev SN1 : Shape := ⟨2, ![100000, 1]⟩
/-- One row of 128. -/
abbrev S128 : Shape := ⟨1, ![128]⟩

/-- The product of the feature rows with the projection matrix: entry (n, o) is the sum over the 256 inner
    coordinates of `x n k · w k o`. -/
def proj (x : SN256.Idx → EReal) (w : S256x128.Idx → EReal) : SN128.Idx → EReal :=
  fun i => ∑ k : Fin 256, x (ix2 (i 0) k) * w (ix2 k (i 1))

/-- Every row of `v` divided by its Euclidean norm, the norm clamped from below at `e`. -/
def normalize (e : EReal) (v : SN128.Idx → EReal) : SN128.Idx → EReal :=
  fun i => Ideal.div (v i) (max (Ideal.sqrt (∑ l : Fin 128, v (ix2 (i 0) l) * v (ix2 (i 0) l))) e)

/-- The last stage as the kernel does it: row `n` of `agg` times node `n`'s weight, plus the bias row, normalized
    (the clamp is the float `1e-12`, kept as its word: both programs spell the same word). -/
def finalize (agg : SN128.Idx → EReal) (d : SN1.Idx → EReal) (b : S128.Idx → EReal) : SN128.Idx → EReal :=
  normalize (Ideal.ofBits .f32 0x2B8CBCCC#32) (fun i => agg i * d (ix2 (i 0) 0) + b (ix1 (i 1)))

end Cert.Spec

end
-- ==== Proof.Region0.lean ====
/-
  The projection region, read as one function of its two arrays.

  The grid has 25 points.  At point `t` the region holds rows `4000 t … 4000 t + 3999` of the feature array (a block of
  4000 rows of 256 numbers), the whole 256 × 128 projection matrix, and writes rows `4000 t … 4000 t + 3999` of the
  result (a block of 4000 rows of 128 numbers).  Entry `(p, q)` of the block written is the sum over the 256 inner
  coordinates `k` of the feature block's `(p, k)` times the matrix's `(k, q)`: over the extended reals a change of
  format is the identity and a product accumulated into zero is the plain sum of products.  So entry `(r, q)` of the
  result depends on row `r` of the features and column `q` of the matrix only, and is written by point `r / 4000`;
  the 25 blocks tile the 100000 rows, so the result is the product `Cert.Spec.proj` everywhere.
-/
import proofs.«125581_j45122926412247_2_alg».proof.Proof.Gen.KernelIdeal.Frame
import proofs.«125581_j45122926412247_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.ShloMosaic.ValueIdx Idealize.SL.Sem Cert.KernelIdeal Cert.KernelIdeal.Gen
open Idealize.ShloMosaic.Pipeline (Dat)
open scoped BigOperators

/-! ## One entry of the block a point writes -/

/-- In the sum for entry `j` of the product, the left factor is read at row `j 0` and at the inner coordinate, the right
    factor at the inner coordinate and at column `j 1`. -/
theorem lhs_row (j : S4000x128.Idx) (k : dot_S4000x256_S256x128_S4000x128_1_0_0_1_n_n.contr.Idx) :
    (dot_S4000x256_S256x128_S4000x128_1_0_0_1_n_n.lhsIdx j k 0).val = (j 0).val := by
  unfold DotDims.lhsIdx
  rw [dif_neg (show ¬(0 : Fin S4000x256.rank) ∈ dot_S4000x256_S256x128_S4000x128_1_0_0_1_n_n.lhsBatch by decide), dif_pos (show (0 : Fin S4000x256.rank) ∈ dot_S4000x256_S256x128_S4000x128_1_0_0_1_n_n.lhsNonContracting by decide)]
  rfl
theorem lhs_inner (j : S4000x128.Idx) (k : dot_S4000x256_S256x128_S4000x128_1_0_0_1_n_n.contr.Idx) :
    (dot_S4000x256_S256x128_S4000x128_1_0_0_1_n_n.lhsIdx j k 1).val = (k ⟨0, by decide⟩).val :=
  dot_S4000x256_S256x128_S4000x128_1_0_0_1_n_n.lhsIdx_val_of_single rfl j k
theorem rhs_inner (j : S4000x128.Idx) (k : dot_S4000x256_S256x128_S4000x128_1_0_0_1_n_n.contr.Idx) :
    (dot_S4000x256_S256x128_S4000x128_1_0_0_1_n_n.rhsIdx j k 0).val = (k ⟨0, by decide⟩).val :=
  dot_S4000x256_S256x128_S4000x128_1_0_0_1_n_n.rhsIdx_val_of_single rfl j k
theorem rhs_col (j : S4000x128.Idx) (k : dot_S4000x256_S256x128_S4000x128_1_0_0_1_n_n.contr.Idx) :
    (dot_S4000x256_S256x128_S4000x128_1_0_0_1_n_n.rhsIdx j k 1).val = (j 1).val := by
  unfold DotDims.rhsIdx
  rw [dif_neg (show ¬(1 : Fin S256x128.rank) ∈ dot_S4000x256_S256x128_S4000x128_1_0_0_1_n_n.rhsBatch by decide), dif_pos (show (1 : Fin S256x128.rank) ∈ dot_S4000x256_S256x128_S4000x128_1_0_0_1_n_n.rhsNonContracting by decide)]
  rfl

/-- Entry `(p, q)` of the block the body stores: the sum over the inner coordinate of the feature block's row `p`
    times the matrix's column `q`. -/
theorem pay_apply (x0 : Vec Ideal S4000x256 .f32) (x1 : Vec Ideal S256x128 .f32) (p : Fin 4000) (q : Fin 128) :
    k0_pay1 x0 x1 (ix2 p q) = ∑ k : Fin 256, x0 (ix2 p k) * x1 (ix2 k q) := by
  unfold k0_pay1
  show FloatOps.matmul (F := Ideal) (φ₁ := .f32) (φ₂ := .f32) dot_S4000x256_S256x128_S4000x128_1_0_0_1_n_n none x0 (shapeCast S256x128 x1 shapeCasts_S256x128_S256x128) (constant (F := Ideal) S4000x128 .f32 0x00000000#32) (ix2 p q) = _
  rw [shapeCast_self]
  rw [Ideal.matmul_constant_zero_apply, ← Equiv.sum_comp (contrEquiv1 dot_S4000x256_S256x128_S4000x128_1_0_0_1_n_n 256 rfl rfl).symm]
  refine Finset.sum_congr rfl fun k _ => ?_
  have hk := contrEquiv1_symm_val dot_S4000x256_S256x128_S4000x128_1_0_0_1_n_n 256 rfl rfl k
  have el : dot_S4000x256_S256x128_S4000x128_1_0_0_1_n_n.lhsIdx (ix2 p q) ((contrEquiv1 dot_S4000x256_S256x128_S4000x128_1_0_0_1_n_n 256 rfl rfl).symm k) = ix2 p k := funext fun a => Fin.ext (by
    match a with
    | ⟨0, _⟩ => exact lhs_row _ _
    | ⟨1, _⟩ => exact (lhs_inner _ _).trans hk)
  have er : dot_S4000x256_S256x128_S4000x128_1_0_0_1_n_n.rhsIdx (ix2 p q) ((contrEquiv1 dot_S4000x256_S256x128_S4000x128_1_0_0_1_n_n 256 rfl rfl).symm k) = ix2 k q := funext fun a => Fin.ext (by
    match a with
    | ⟨0, _⟩ => exact (rhs_inner _ _).trans hk
    | ⟨1, _⟩ => exact rhs_col _ _)
  rw [el, er]

/-- The block a point stores, entry by entry, when its two input blocks are pieces of two arrays `a0`, `a1`: if row
    `j 0` of the feature block is row `e j 0` of `a0` and column `j 1` of the matrix block is column `e j 1` of `a1`, the
    block's entry `j` is the product's entry `e j`. -/
theorem block_eq (x0 : Vec Ideal S4000x256 .f32) (x1 : Vec Ideal S256x128 .f32)
    (a0 : Cert.Spec.SN256.Idx → EReal) (a1 : Cert.Spec.S256x128.Idx → EReal) (e : S4000x128.Idx → Cert.Spec.SN128.Idx)
    (h0 : ∀ (j : S4000x128.Idx) (k : Fin 256), x0 (ix2 (j 0) k) = a0 (ix2 (e j 0) k))
    (h1 : ∀ (j : S4000x128.Idx) (k : Fin 256), x1 (ix2 k (j 1)) = a1 (ix2 k (e j 1))) :
    k0_pay1 x0 x1 = fun j => Cert.Spec.proj a0 a1 (e j) := by
  funext j
  obtain ⟨p, q, rfl⟩ : ∃ (p : Fin 4000) (q : Fin 128), j = ix2 p q := ⟨j 0, j 1, eq_ix2 j⟩
  rw [pay_apply]
  exact Finset.sum_congr rfl fun k _ => congrArg₂ (· * ·) (h0 (ix2 p q) k) (h1 (ix2 p q) k)

/-! ## From the blocks to the array -/

section Region
variable (V : (c : Dev nD) → (b : Ref sig .tc) → Buf (Elt Ideal) ((c : Thread nD τ).loc b))

theorem zero_offsets : (![0, 0] : Fin 2 → Nat) = fun _ => 0 := funext fun a => by fin_cases a <;> rfl

/-- The three index maps over the grid: at point `t` the feature window and the result window are at block row `t`,
    block column 0; the matrix window is at block (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays as the region finds them. -/
theorem flushed_eq (c : Dev nD) (t : Fin cfg0.N) :
    (dat0 (F := Ideal) V c).flushed 2 t
      = ((cfg0.win 2).blk t).view.read (Elt Ideal) (Cert.Spec.proj (V c main_arg0) (V c main_v2)) := by
  show (cfg0.win 2).cut (grid0.coords t) ((dat0 (F := Ideal) V c).after 2 t) = _
  rw [after0_2]
  unfold out0_2
  rw [View.canon_unit_zero zero_offsets]
  simp only [View.ld_unit_zero (S := S4000x256) zero_offsets, View.ld_unit_zero (S := S256x128) zero_offsets]
  obtain ⟨e0, e1, e2, e3, e4, e5⟩ := index_facts t
  refine block_eq (iblk0 V c 0 t) (iblk0 V c 1 t) (V c main_arg0) (V c main_v2) (fun j => ((cfg0.win 2).blk t).view.emb j) ?_ ?_
  · intro j k
    show V c main_arg0 (((cfg0.win 0).blk t).view.emb (ix2 (j 0) k)) = V c main_arg0 (ix2 (((cfg0.win 2).blk t).view.emb j 0) k)
    refine congrArg (V c main_arg0) ?_
    funext a; apply Fin.ext
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 256 + 1 * k.val = k.val; omega
  · intro j k
    show V c main_v2 (((cfg0.win 1).blk t).view.emb (ix2 k (j 1))) = V c main_v2 (ix2 k (((cfg0.win 2).blk t).view.emb j 1))
    refine congrArg (V c main_v2) ?_
    funext a; apply Fin.ext
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega

/-- An index of the result array lies in point `t`'s block iff on each axis its coordinate is within the block's
    range: rows `4000 t … 4000 t + 3999`, all 128 columns. -/
theorem mem_blk (t : Fin cfg0.N) (i : S100000x128.Idx) :
    i ∈ ((cfg0.win 2).blk t).view.set ↔ ∀ a : Fin 2, win0_2.index t a * S4000x128.size a ≤ (i a).val
      ∧ (i a).val < win0_2.index t a * S4000x128.size a + S4000x128.size a := by
  show i ∈ ((View.whole main_v3).slice (win0_2.rect t)).set ↔ _
  rw [View.set_slice_whole, Rect.mem_set_unit]
  exact Iff.rfl

/-- Every index of the result array is written: row `r` by point `r / 4000`. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 4000 :=
    ⟨⟨(i 0).val / 4000, by rw [show cfg0.N = 25 from N_0]; omega⟩, rfl⟩
  obtain ⟨e0, e1, e2, e3, e4, e5⟩ := index_facts t
  refine ⟨t, flush0_2 t, ?_⟩
  rw [mem_blk]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 128 ≤ (i 1).val ∧ (i 1).val < win0_2.index t (1 : Fin 2) * 128 + 128; omega

/-- After the region the result array is the product of the feature array and the matrix as the region found them. -/
theorem final (c : Dev nD) :
    (dat0 (F := Ideal) V c).arrAt 2 cfg0.N = Cert.Spec.proj (V c main_arg0) (V c main_v2) :=
  (dat0 (F := Ideal) V c).arrAt_eq_of_cover 2 _ (fun t _ => flushed_eq V c t) covered

end Region

end Cert.KernelIdeal.Region0

end
-- ==== Proof.Region1.lean ====
/-
  The last stage of the kernel, block by block, as one function of the arrays it reads.

  The stage walks the 100000 rows in 20 blocks of 5000 consecutive rows.  At block t it holds rows
  5000·t … 5000·t + 4999 of the summed messages (128 lanes wide), the same rows of the weight column, and the whole
  bias row.  Entry (p, q) of what it writes is

      w p q / max (sqrt (Σ over the 128 lanes l of w p l · w p l)) ε,     w p l = agg (p, l) · d (p, 0) + b l,

  so it depends on row p of the block alone: on the 128 entries of that row of the messages, on that row's one weight,
  and on the bias row.  Row p of block t is row 5000·t + p of the arrays, the 20 blocks tile the 100000 rows, hence the
  array the stage leaves is the specification's last stage of the three arrays it was given, index by index.
-/
import proofs.«125581_j45122926412247_2_alg».proof.Proof.Gen.KernelIdeal.Frame
import proofs.«125581_j45122926412247_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Idealize.ShloMosaic Idealize.ShloMosaic.TcCoe Idealize.ShloMosaic.ValueIdx Idealize.SL.Sem Cert.KernelIdeal Cert.KernelIdeal.Gen
open Idealize.ShloMosaic.Pipeline (Dat)

/-! ## Layout operations of a column, read at coordinates -/

section Layout
variable {α : Type}

/-- An [a, 1] column broadcast to [a, b] reads, at (p, c), the column's entry of row p. -/
theorem broadcastTo_column_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An [a] vector cast to an [a, 1] column reads, at (i, u), the vector at i, whatever the unit coordinate u. -/
theorem shapeCast_vector_column_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## Vector operations at an index -/

/-- A square root of a vector at an index is the square root of the element. -/
theorem sqrt_apply {s : Shape} {φ : FTy} (a : FVec Ideal s φ) (i : s.Idx) : sqrt a i = Ideal.sqrt (a i) := rfl

/-- The sum over the lanes of a 5000 × 128 block, read at row p, is the sum of the row's 128 entries. -/
theorem laneSum_apply (src : FVec Ideal S5000x128 .f32) (h : S5000x128.Reduces [1] S5000) (hφ : FKind.Formats .f32)
    (hacc : (0x00000000#32 : BitVec 32) = 0x00000000#32) (p : Fin 5000) :
    multiReduction (F := Ideal) .add [1] S5000 src 0x00000000#32 h hφ hacc (ix1 p) = ∑ l : Fin 128, src (ix2 p l) := by
  refine (Ideal.multiReduction_add_single src 0x00000000#32 h hφ hacc (ix1 p)).trans ?_
  refine Finset.sum_congr rfl fun l _ => congrArg src ?_
  funext ax
  match ax with
  | ⟨0, _⟩ => rfl
  | ⟨1, _⟩ => rfl

/-! ## The block's payload at an entry -/

/-- Entry (p, l) of a block before normalization: the message entry times row p's weight, plus lane l of the bias. -/
def biased (x0 : Vec Ideal S5000x128 .f32) (x1 : Vec Ideal S5000x1 .f32) (x2 : Vec Ideal S128 .f32)
    (p : Fin 5000) (l : Fin 128) : EReal :=
  x0 (ix2 p l) * x1 (ix2 p (0 : Fin 1)) + x2 (ix1 l)

/-- The weighted and biased block, as the body spells it with a column broadcast along the lanes and the bias row
    broadcast along the rows, read at (p, q). -/
theorem biased_apply (x0 : Vec Ideal S5000x128 .f32) (x1 : Vec Ideal S5000x1 .f32) (x2 : Vec Ideal S128 .f32)
    (h1 : S5000x128.ShapeCasts S5000x128) (h2 : S5000x1.ShapeCasts S5000x1) (h3 : S5000x1.Broadcasts S5000x128)
    (h4 : S128.ShapeCasts S1x128) (h5 : S1x128.Broadcasts S5000x128) (p : Fin 5000) (q : Fin 128) :
    addf (F := Ideal) (φ := .f32) (mulf (shapeCast S5000x128 x0 h1) (broadcastTo S5000x128 (shapeCast S5000x1 x1 h2) h3))
        (broadcastTo S5000x128 (shapeCast S1x128 x2 h4) h5) (ix2 p q) = biased x0 x1 x2 p q := by
  rw [addf_apply, mulf_apply, shapeCast_self, shapeCast_self, broadcastTo_column_apply, broadcastTo_1b_ab_apply,
    shapeCast_a_1a_apply]
  rfl

/-- THE PAYLOAD AT (p, q): the biased entry divided by the Euclidean norm of its row of 128, the norm clamped from
    below at the constant the body spells. -/
theorem payload_apply (x0 : Vec Ideal S5000x128 .f32) (x1 : Vec Ideal S5000x1 .f32) (x2 : Vec Ideal S128 .f32)
    (p : Fin 5000) (q : Fin 128) :
    k1_pay1 (F := Ideal) x0 x1 x2 (ix2 p q)
      = Ideal.div (biased x0 x1 x2 p q)
          (max (Ideal.sqrt (∑ l : Fin 128, biased x0 x1 x2 p l * biased x0 x1 x2 p l)) (Ideal.ofBits .f32 0x2B8CBCCC#32)) := by
  unfold k1_pay1
  dsimp only
  rw [divf_apply, biased_apply, broadcastTo_column_apply, maximumf_apply, sqrt_apply, shapeCast_vector_column_apply,
    laneSum_apply]
  simp only [mulf_apply, biased_apply]
  rfl

/-! ## A block's entry is the specification's entry of the arrays -/

/-- Whenever row p of the three loaded blocks holds row r of the message array, row r's weight and the bias row,
    the payload at (p, q) is the specification's last stage of the arrays at (r, q): the norm's sum runs over the 128
    entries of the same row on both sides. -/
theorem payload_eq_finalize (agg : Cert.Spec.SN128.Idx → EReal) (d : Cert.Spec.SN1.Idx → EReal) (b : Cert.Spec.S128.Idx → EReal)
    (x0 : Vec Ideal S5000x128 .f32) (x1 : Vec Ideal S5000x1 .f32) (x2 : Vec Ideal S128 .f32)
    (r : Fin 100000) (p : Fin 5000) (q : Fin 128)
    (h0 : ∀ l : Fin 128, x0 (ix2 p l) = agg (ix2 r l))
    (h1 : x1 (ix2 p (0 : Fin 1)) = d (ix2 r (0 : Fin 1)))
    (h2 : ∀ l : Fin 128, x2 (ix1 l) = b (ix1 l)) :
    k1_pay1 (F := Ideal) x0 x1 x2 (ix2 p q) = Cert.Spec.finalize agg d b (ix2 r q) := by
  have hb : ∀ l : Fin 128, biased x0 x1 x2 p l = agg (ix2 r l) * d (ix2 r (0 : Fin 1)) + b (ix1 l) := fun l => by
    unfold biased; rw [h0 l, h1, h2 l]
  rw [payload_apply]
  simp only [hb]
  rfl

/-! ## The windows' index maps over the grid -/

/-- The zero offsets of a rank-2 access, as the constant function. -/
theorem zeros2 : (![0, 0] : Fin 2 → Nat) = fun _ => 0 := funext fun a => by fin_cases a <;> rfl
/-- The zero offset of a rank-1 access, as the constant function. -/
theorem zeros1 : (![0] : Fin 1 → Nat) = fun _ => 0 := funext fun a => by fin_cases a; rfl

/-- At point t the message window, the weight window and the output window all sit at row block t and column block 0;
    the bias window is always the whole row. -/
theorem index_facts : ∀ t : Fin cfg1.N, win1_3.index t (0 : Fin 2) = t.val
    ∧ win1_3.index t (1 : Fin 2) = 0
    ∧ win1_0.index t (0 : Fin 2) = t.val
    ∧ win1_0.index t (1 : Fin 2) = 0
    ∧ win1_1.index t (0 : Fin 2) = t.val
    ∧ win1_1.index t (1 : Fin 2) = 0
    ∧ win1_2.index t (0 : Fin 1) = 0 :=
  (by decide +kernel : ∀ t : Fin grid1.N, _)

/-! ## What a point writes back -/

/-- WHAT POINT t WRITES BACK is block t of the specification's last stage of the arrays as the region finds them. -/
theorem flushed_eq (V : (c : Dev nD) → (b : Ref sig .tc) → Buf (Elt Ideal) ((c : Thread nD τ).loc b)) (c : Dev nD) (t : Fin cfg1.N) :
    (dat1 (F := Ideal) V c).flushed 3 t
      = ((cfg1.win 3).blk t).view.read (Elt Ideal) (Cert.Spec.finalize (V c main_v34) (V c main_v35) (V c main_arg4)) := by
  show (cfg1.win 3).cut (grid1.coords t) ((dat1 V c).after 3 t) = _
  rw [after1_3]
  unfold out1_3
  rw [View.canon_unit_zero zeros2]
  simp only [View.ld_unit_zero (S := S5000x128) zeros2, View.ld_unit_zero (S := S5000x1) zeros2, View.ld_unit_zero (S := S128) zeros1]
  obtain ⟨e30, e31, e00, e01, e10, e11, e20⟩ := index_facts t
  have ht : t.val < 20 := lt_of_lt_of_eq t.isLt (show cfg1.N = 20 from N_1)
  funext j
  obtain ⟨p, q, rfl⟩ : ∃ (p : Fin 5000) (q : Fin 128), j = ix2 p q := ⟨j 0, j 1, eq_ix2 j⟩
  have hr : t.val * 5000 + p.val < 100000 := by have := p.isLt; omega
  refine (payload_eq_finalize (V c main_v34) (V c main_v35) (V c main_arg4) _ _ _ ⟨t.val * 5000 + p.val, hr⟩ p q ?_ ?_ ?_).trans ?_
  · intro l
    have hi : ((cfg1.win 0).blk t).view.emb (ix2 p l) = ix2 ⟨t.val * 5000 + p.val, hr⟩ l := by
      funext a; apply Fin.ext
      match a with
      | ⟨0, _⟩ => show win1_0.index t (0 : Fin 2) * 5000 + 1 * p.val = t.val * 5000 + p.val; omega
      | ⟨1, _⟩ => show win1_0.index t (1 : Fin 2) * 128 + 1 * l.val = l.val; omega
    show V c main_v34 (((cfg1.win 0).blk t).view.emb (ix2 p l)) = V c main_v34 (ix2 ⟨t.val * 5000 + p.val, hr⟩ l)
    rw [hi]
  · have hi : ((cfg1.win 1).blk t).view.emb (ix2 p (0 : Fin 1)) = ix2 ⟨t.val * 5000 + p.val, hr⟩ (0 : Fin 1) := by
      funext a; apply Fin.ext
      match a with
      | ⟨0, _⟩ => show win1_1.index t (0 : Fin 2) * 5000 + 1 * p.val = t.val * 5000 + p.val; omega
      | ⟨1, _⟩ => show win1_1.index t (1 : Fin 2) * 1 + 1 * 0 = 0; omega
    show V c main_v35 (((cfg1.win 1).blk t).view.emb (ix2 p (0 : Fin 1))) = V c main_v35 (ix2 ⟨t.val * 5000 + p.val, hr⟩ (0 : Fin 1))
    rw [hi]
  · intro l
    have hi : ((cfg1.win 2).blk t).view.emb (ix1 l) = ix1 l := by
      funext a; apply Fin.ext
      match a with
      | ⟨0, _⟩ => show win1_2.index t (0 : Fin 1) * 128 + 1 * l.val = l.val; omega
    show V c main_arg4 (((cfg1.win 2).blk t).view.emb (ix1 l)) = V c main_arg4 (ix1 l)
    rw [hi]
  · have hi : ((cfg1.win 3).blk t).view.emb (ix2 p q) = ix2 ⟨t.val * 5000 + p.val, hr⟩ q := by
      funext a; apply Fin.ext
      match a with
      | ⟨0, _⟩ => show win1_3.index t (0 : Fin 2) * 5000 + 1 * p.val = t.val * 5000 + p.val; omega
      | ⟨1, _⟩ => show win1_3.index t (1 : Fin 2) * 128 + 1 * q.val = q.val; omega
    show Cert.Spec.finalize (V c main_v34) (V c main_v35) (V c main_arg4) (ix2 ⟨t.val * 5000 + p.val, hr⟩ q)
      = Cert.Spec.finalize (V c main_v34) (V c main_v35) (V c main_arg4) (((cfg1.win 3).blk t).view.emb (ix2 p q))
    rw [hi]

/-! ## The blocks tile the array -/

/-- An index of the array is in point t's block iff each coordinate is in the block's range on its axis. -/
theorem mem_blk (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v36).slice (win1_3.rect t)).set ↔ _
  rw [View.set_slice_whole, Rect.mem_set_unit]
  exact Iff.rfl

/-- Every index is covered: row r lies in the block of point r / 5000, and a block spans all 128 lanes. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨e30, e31, -⟩ := index_facts t
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-! ## The array the stage leaves -/

/-- THE ARRAY after the last point: the specification's last stage of the three arrays the region was entered with. -/
theorem final (V : (c : Dev nD) → (b : Ref sig .tc) → Buf (Elt Ideal) ((c : Thread nD τ).loc b)) (c : Dev nD) :
    (dat1 (F := Ideal) V c).arrAt 3 cfg1.N = Cert.Spec.finalize (V c main_v34) (V c main_v35) (V c main_arg4) :=
  (dat1 (F := Ideal) V c).arrAt_eq_of_cover 3 _ (fun t _ => flushed_eq V c t) cover

end Cert.KernelIdeal.Region1

end
-- ==== Proof.HostValue.lean ====
/-
  What the host operations between the two regions compute, as functions of the edge list and of the projected rows.

  The edge list is a 2 × 1600000 array of node numbers: row 0 the sources, row 1 the targets.  Both rows get the
  100000 self-loops appended.  A node's degree is the number of edges whose target is that node (an edge whose target
  is not a node number counts for nothing); its weight is the reciprocal square root of the degree where the degree is
  positive, else zero.  Each projected row is multiplied by its node's weight; each edge fetches the weighted row of
  its source (a negative source number is first raised by 100000, and the fetch clamps it into range); and each node
  adds up the rows fetched by the edges that end in it.
-/
import proofs.«125581_j45122926412247_2_alg».proof.Proof.Gen.KernelIdeal.Frame
import Idealize.ShloMosaic.Lib.StableHlo.Run
import Idealize.ShloMosaic.PureOps.Ideal

set_option maxRecDepth 16384

noncomputable section

namespace Cert.KernelIdeal.HostValue

open Idealize.ShloMosaic Idealize.ShloMosaic.TcCoe Idealize.SL.Sem Idealize.ShloMosaic.StableHlo
open Cert.KernelIdeal Cert.KernelIdeal.Gen

/-- The sources of the 1700000 edges: row 0 of the edge list, then every node once. -/
def srcOf (x1 : IVec S2x1600000 32) : IVec S1700000 32 :=
  concatenate S1700000 0 [⟨S1600000, shapeCast S1600000 (extractStridedSlice S1x1600000 ![0, 0] x1 slices_S2x1600000_S1x1600000_0_0) shapeCasts_S1x1600000_S1600000⟩, ⟨S100000, iotaInDim S100000 32 0⟩] concatenates_S1600000_S100000_S1700000_d0

/-- The targets of the 1700000 edges: row 1 of the edge list, then every node once. -/
def dstOf (x1 : IVec S2x1600000 32) : IVec S1700000 32 :=
  concatenate S1700000 0 [⟨S1600000, shapeCast S1600000 (extractStridedSlice S1x1600000 ![1, 0] x1 slices_S2x1600000_S1x1600000_1_0) shapeCasts_S1x1600000_S1600000⟩, ⟨S100000, iotaInDim S100000 32 0⟩] concatenates_S1600000_S100000_S1700000_d0

/-- A node's degree: one for every edge that ends in it. -/
def degOf (x1 : IVec S2x1600000 32) : FVec Ideal S100000 .f32 :=
  Host.scatterAdd scatter_S100000_S1700000x1_S1700000_n_0_0_1
    (broadcastInDim S100000 ![] bcast_S_S100000 (constant (F := Ideal) S_ .f32 0x00000000#32))
    (broadcastInDim S1700000x1 ![0] bcast_S1700000_S1700000x1_0 (dstOf x1))
    (broadcastInDim S1700000 ![] bcast_S_S1700000 (constant (F := Ideal) S_ .f32 0x3F800000#32))

/-- A node's weight: the reciprocal square root of its degree where that is positive, else zero. -/
def dinvOf (x1 : IVec S2x1600000 32) : FVec Ideal S100000 .f32 :=
  select (cmpf .ogt (degOf x1) (broadcastInDim S100000 ![] bcast_S_S100000 (constant (F := Ideal) S_ .f32 0x00000000#32)))
    (Host.rsqrt (degOf x1))
    (broadcastInDim S100000 ![] bcast_S_S100000 (id (constant (F := Ideal) S_ .f32 0x00000000#32)))

/-- The row each edge fetches: its source, a negative number raised by 100000, as a column of start indices. -/
def fetchOf (x1 : IVec S2x1600000 32) : IVec S1700000x1 32 :=
  broadcastInDim S1700000x1 ![0] bcast_S1700000_S1700000x1_0
    (select (cmpi .slt (srcOf x1) (broadcastInDim S1700000 ![] bcast_S_S1700000 (constantI S_ 32 0#32)))
      (addi (srcOf x1) (broadcastInDim S1700000 ![] bcast_S_S1700000 (constantI S_ 32 100000#32)))
      (srcOf x1))

/-- Every node's sum, over the edges that end in it, of the source's projected row times the source's weight. -/
def aggOf (x1 : IVec S2x1600000 32) (h : FVec Ideal S100000x128 .bf16) : FVec Ideal S100000x128 .f32 :=
  Host.scatterAdd scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 (dstOf x1))
    (extf .f32 (Host.gather gather_S100000x128_S1700000x1_S1700000x128_1_0_n_n_0_1_1128
      (truncf .bf16 (mulf (extf .f32 h bitsLt_bf16_f32)
        (broadcastInDim S100000x128 ![0, 1] bcast_S100000x1_S100000x128_0_1 (broadcastInDim S100000x1 ![0] bcast_S100000_S100000x1_0 (dinvOf x1)))) bitsLt_bf16_f32)
      (fetchOf x1)) bitsLt_bf16_f32)

/-- The weights as a column. -/
def dinvCol (x1 : IVec S2x1600000 32) : FVec Ideal S100000x1 .f32 :=
  shapeCast S100000x1 (dinvOf x1) shapeCasts_S100000_S100000x1

variable (X : Valuation τ sig (Elt Ideal))

/-! ## The first stretch: edge ends, degrees, the comparison with zero and the reciprocal square roots -/

theorem stretch1_src : StableHlo.after (hostOps1 (F := Ideal)) X (Proc.devRef .tc main_v7) = srcOf (X (Proc.devRef .tc main_arg1)) := by
  dsimp only [hostOps1]
  after_results
  rfl

theorem stretch1_dst : StableHlo.after (hostOps1 (F := Ideal)) X (Proc.devRef .tc main_v10) = dstOf (X (Proc.devRef .tc main_arg1)) := by
  dsimp only [hostOps1]
  after_results
  rfl

theorem stretch1_gt : StableHlo.after (hostOps1 (F := Ideal)) X (Proc.devRef .tc main_v16)
    = cmpf .ogt (degOf (X (Proc.devRef .tc main_arg1))) (broadcastInDim S100000 ![] bcast_S_S100000 (constant (F := Ideal) S_ .f32 0x00000000#32)) := by
  dsimp only [hostOps1]
  after_results
  rfl

theorem stretch1_rsqrt : StableHlo.after (hostOps1 (F := Ideal)) X (Proc.devRef .tc main_v17) = Host.rsqrt (degOf (X (Proc.devRef .tc main_arg1))) := by
  dsimp only [hostOps1]
  after_results
  rfl

theorem stretch1_zero : StableHlo.after (hostOps1 (F := Ideal)) X (Proc.devRef .tc main_cst_2) = constant (F := Ideal) S_ .f32 0x00000000#32 := by
  dsimp only [hostOps1]
  after_results

theorem stretch1_h : StableHlo.after (hostOps1 (F := Ideal)) X (Proc.devRef .tc main_v3) = X (Proc.devRef .tc main_v3) := by
  dsimp only [hostOps1]
  after_results

/-! ## The second stretch: the weight is the reciprocal square root where the degree is positive, else zero -/

theorem stretch2_dinv : StableHlo.after (hostOps1_1 (F := Ideal)) X (Proc.devRef .tc main_v18)
    = select (X (Proc.devRef .tc main_v16)) (X (Proc.devRef .tc main_v17))
        (broadcastInDim S100000 ![] bcast_S_S100000 (id (X (Proc.devRef .tc main_cst_2)))) := by
  dsimp only [hostOps1_1]
  after_results
  rfl

theorem stretch2_src : StableHlo.after (hostOps1_1 (F := Ideal)) X (Proc.devRef .tc main_v7) = X (Proc.devRef .tc main_v7) := by
  dsimp only [hostOps1_1]
  after_results

theorem stretch2_dst : StableHlo.after (hostOps1_1 (F := Ideal)) X (Proc.devRef .tc main_v10) = X (Proc.devRef .tc main_v10) := by
  dsimp only [hostOps1_1]
  after_results

theorem stretch2_h : StableHlo.after (hostOps1_1 (F := Ideal)) X (Proc.devRef .tc main_v3) = X (Proc.devRef .tc main_v3) := by
  dsimp only [hostOps1_1]
  after_results

/-! ## The third stretch: weighted rows fetched along the edges and added up per target; the weights as a column -/

set_option maxHeartbeats 2000000 in
theorem stretch3_agg : StableHlo.after (hostOps1_2 (F := Ideal)) X (Proc.devRef .tc main_v34)
    = Host.scatterAdd scatter_S100000x128_S1700000x1_S1700000x128_1_0_0_1
        (broadcastInDim S100000x128 ![] bcast_S_S100000x128 (constant (F := Ideal) S_ .f32 0x00000000#32))
        (broadcastInDim S1700000x1 ![0] bcast_S1700000_S1700000x1_0 (X (Proc.devRef .tc main_v10)))
        (extf .f32 (Host.gather gather_S100000x128_S1700000x1_S1700000x128_1_0_n_n_0_1_1128
          (truncf .bf16 (mulf (extf .f32 (X (Proc.devRef .tc main_v3)) bitsLt_bf16_f32)
            (broadcastInDim S100000x128 ![0, 1] bcast_S100000x1_S100000x128_0_1 (broadcastInDim S100000x1 ![0] bcast_S100000_S100000x1_0 (X (Proc.devRef .tc main_v18))))) bitsLt_bf16_f32)
          (broadcastInDim S1700000x1 ![0] bcast_S1700000_S1700000x1_0
            (select (cmpi .slt (X (Proc.devRef .tc main_v7)) (broadcastInDim S1700000 ![] bcast_S_S1700000 (constantI S_ 32 0#32)))
              (addi (X (Proc.devRef .tc main_v7)) (broadcastInDim S1700000 ![] bcast_S_S1700000 (constantI S_ 32 100000#32)))
              (X (Proc.devRef .tc main_v7))))) bitsLt_bf16_f32) := by
  dsimp only [hostOps1_2]
  after_results_simp <;> rfl

theorem stretch3_col : StableHlo.after (hostOps1_2 (F := Ideal)) X (Proc.devRef .tc main_v35)
    = shapeCast S100000x1 (X (Proc.devRef .tc main_v18)) shapeCasts_S100000_S100000x1 := by
  dsimp only [hostOps1_2]
  after_results
  rfl

/-! ## The three stretches together -/

/-- After the three stretches the per-node sums are `aggOf` of the edge list and the projected rows as the
    stretches found them. -/
theorem host_agg : StableHlo.after (hostOps1_2 (F := Ideal)) (StableHlo.after hostOps1_1 (StableHlo.after hostOps1 X)) (Proc.devRef .tc main_v34)
    = aggOf (X (Proc.devRef .tc main_arg1)) (X (Proc.devRef .tc main_v3)) := by
  rw [stretch3_agg, stretch2_dinv, stretch2_src, stretch2_dst, stretch2_h, stretch1_src, stretch1_dst, stretch1_gt,
    stretch1_rsqrt, stretch1_zero, stretch1_h]
  rfl

/-- And the weights, as a column, are `dinvCol` of the edge list. -/
theorem host_col : StableHlo.after (hostOps1_2 (F := Ideal)) (StableHlo.after hostOps1_1 (StableHlo.after hostOps1 X)) (Proc.devRef .tc main_v35)
    = dinvCol (X (Proc.devRef .tc main_arg1)) := by
  rw [stretch3_col, stretch2_dinv, stretch1_gt, stretch1_rsqrt, stretch1_zero]
  rfl

/-- No operation of the three stretches writes the bias row. -/
theorem host_bias : StableHlo.after (hostOps1_2 (F := Ideal)) (StableHlo.after hostOps1_1 (StableHlo.after hostOps1 X)) (Proc.devRef .tc main_arg4)
    = X (Proc.devRef .tc main_arg4) := by
  dsimp only [hostOps1_2, hostOps1_1, hostOps1]
  after_results

/-! ## The stretch before the first region: the two weight matrices transposed and multiplied -/

theorem stretch0_w : StableHlo.after (hostOps0 (F := Ideal)) X (Proc.devRef .tc main_v2)
    = Host.dotGeneral (F := Ideal) (φ₁ := .f32) (φ₂ := .f32) dot_S256x128_S128x128_S256x128_1_0_0_1_n_n none
        (transpose S256x128 [1, 0] (X (Proc.devRef .tc main_arg2)) transposes_S128x256_S256x128_1_0)
        (transpose S128x128 [1, 0] (X (Proc.devRef .tc main_arg3)) transposes_S128x128_S128x128_1_0) := by
  dsimp only [hostOps0]
  after_results

theorem stretch0_x : StableHlo.after (hostOps0 (F := Ideal)) X (Proc.devRef .tc main_arg0) = X (Proc.devRef .tc main_arg0) := by
  dsimp only [hostOps0]
  after_results

theorem stretch0_e : StableHlo.after (hostOps0 (F := Ideal)) X (Proc.devRef .tc main_arg1) = X (Proc.devRef .tc main_arg1) := by
  dsimp only [hostOps0]
  after_results

theorem stretch0_b : StableHlo.after (hostOps0 (F := Ideal)) X (Proc.devRef .tc main_arg4) = X (Proc.devRef .tc main_arg4) := by
  dsimp only [hostOps0]
  after_results

end Cert.KernelIdeal.HostValue

end
-- ==== Proof.KernelValue.lean ====
/-
  What the kernel program's result array holds, as one function of the five arguments.

  The fold through the six segments, read backwards from the result: the finalize region writes `finalize` of the
  per-node sums, the weights' column and the bias row; the three stretches before it compute the sums and the weights
  from the edge list and from the projected rows; the projection region writes the product of the features with the
  combined weight matrix; and the first stretch computes that matrix from the two weight arguments.
-/
import proofs.«125581_j45122926412247_2_alg».proof.Proof.RunValue
import proofs.«125581_j45122926412247_2_alg».proof.Proof.Region0
import proofs.«125581_j45122926412247_2_alg».proof.Proof.Region1
import proofs.«125581_j45122926412247_2_alg».proof.Proof.HostValue

set_option maxRecDepth 16384

noncomputable section

namespace Cert.KernelIdeal.KernelValue

open Idealize.ShloMosaic Idealize.ShloMosaic.TcCoe Idealize.SL.Sem Idealize.ShloMosaic.StableHlo
open Cert.KernelIdeal Cert.KernelIdeal.Gen Cert.KernelIdeal.HostValue

/-- The combined weight matrix: the transposed first weight matrix times the transposed second one. -/
def weightsOf (x2 : FVec Ideal S128x256 .f32) (x3 : FVec Ideal S128x128 .f32) : FVec Ideal S256x128 .f32 :=
  Host.dotGeneral (F := Ideal) (φ₁ := .f32) (φ₂ := .f32) dot_S256x128_S128x128_S256x128_1_0_0_1_n_n none
    (transpose S256x128 [1, 0] x2 transposes_S128x256_S256x128_1_0)
    (transpose S128x128 [1, 0] x3 transposes_S128x128_S128x128_1_0)

/-- The whole program's result as a function of the argument arrays. -/
def resultOf (x0 : FVec Ideal S100000x256 .f32) (x1 : IVec S2x1600000 32) (x2 : FVec Ideal S128x256 .f32)
    (x3 : FVec Ideal S128x128 .f32) (x4 : FVec Ideal S128 .f32) : FVec Ideal S100000x128 .f32 :=
  Cert.Spec.finalize (aggOf x1 (Cert.Spec.proj x0 (weightsOf x2 x3))) (dinvCol x1) x4

variable (m : (ℓ : Loc nD τ sig) → Buf (Elt Ideal) ℓ) (ρ : Dev nD → PrngReg)

/-- The edge list reaches the stretches between the regions as launched. -/
theorem edges_kept (c : Dev nD) : W2 m ρ c (Proc.devRef .tc main_arg1) = m ((c : Thread nD τ).loc main_arg1) :=
  (W2_of_ne m ρ c main_arg1 (by decide)).trans (stretch0_e (W0 m ρ c))

/-- The bias row reaches the stretches between the regions as launched. -/
theorem bias_kept (c : Dev nD) : W2 m ρ c (Proc.devRef .tc main_arg4) = m ((c : Thread nD τ).loc main_arg4) :=
  (W2_of_ne m ρ c main_arg4 (by decide)).trans (stretch0_b (W0 m ρ c))

/-- The projection region leaves the product of the features with the combined weight matrix. -/
theorem projected (c : Dev nD) : W2 m ρ c (Proc.devRef .tc main_v3)
    = Cert.Spec.proj (m ((c : Thread nD τ).loc main_arg0)) (weightsOf (m ((c : Thread nD τ).loc main_arg2)) (m ((c : Thread nD τ).loc main_arg3))) := by
  refine (W2_arr m ρ c 2).trans ((Region0.final (V1 m ρ) c).trans ?_)
  show Cert.Spec.proj (StableHlo.after hostOps0 (W0 m ρ c) (Proc.devRef .tc main_arg0)) (StableHlo.after hostOps0 (W0 m ρ c) (Proc.devRef .tc main_v2)) = _
  rw [stretch0_x, stretch0_w]
  rfl

/-- THE RESULT ARRAY after the last segment is `resultOf` of the arguments as launched. -/
theorem value (c : Dev nD) : W6 m ρ c (Proc.devRef .tc main_v36)
    = resultOf (m ((c : Thread nD τ).loc main_arg0)) (m ((c : Thread nD τ).loc main_arg1)) (m ((c : Thread nD τ).loc main_arg2))
        (m ((c : Thread nD τ).loc main_arg3)) (m ((c : Thread nD τ).loc main_arg4)) := by
  refine (W6_arr m ρ c 3).trans ((Region1.final (V5 m ρ) c).trans ?_)
  show Cert.Spec.finalize
      (StableHlo.after hostOps1_2 (StableHlo.after hostOps1_1 (StableHlo.after hostOps1 (W2 m ρ c))) (Proc.devRef .tc main_v34))
      (StableHlo.after hostOps1_2 (StableHlo.after hostOps1_1 (StableHlo.after hostOps1 (W2 m ρ c))) (Proc.devRef .tc main_v35))
      (StableHlo.after hostOps1_2 (StableHlo.after hostOps1_1 (StableHlo.after hostOps1 (W2 m ρ c))) (Proc.devRef .tc main_arg4)) = _
  rw [host_agg, host_col, host_bias, edges_kept, bias_kept, projected]
  rfl

end Cert.KernelIdeal.KernelValue

end
-- ==== Proof.Finite.lean ====
/-
  The precondition says that every entry of the feature array, of the two weight matrices and of the bias row has
  absolute value below plus infinity.  Over the extended reals the absolute value of `x` is `max x (-x)`, which is plus
  infinity exactly when `x` is one of the two infinities; so an entry whose absolute value is below plus infinity is
  a real number.  The precondition is the conjunction of four such statements, each a conjunction over all the
  entries of one array.
-/
import proofs.«125581_j45122926412247_2_alg».proof.Defs
import proofs.«125581_j45122926412247_2_alg».proof.Proof.Gen.Pre_finite_inputs
import Idealize.ShloMosaic.Lib.ReduceAll
import Idealize.ShloMosaic.Lib.ValueIdx
import Idealize.ShloMosaic.PureOps.Ideal.Laws

set_option maxRecDepth 16384

noncomputable section

namespace Cert.KernelIdeal.Finite

open Idealize.ShloMosaic Idealize.ShloMosaic.ValueIdx Idealize.SL.Sem

/-- The shape with no axes has one index. -/
instance : Subsingleton Cert.Pre_finite_inputs.S_.Idx := ⟨fun a b => funext fun d => d.elim0⟩

/-- The word `0x7F800000` is plus infinity. -/
theorem inf_word : Ideal.ofBits .f32 0x7F800000#32 = (⊤ : EReal) := by
  simp [Ideal.ofBits, Ideal.ieee]

/-- An extended real whose absolute value `max x (-x)` is below plus infinity is a real number. -/
theorem real_of_abs_lt (x : EReal) (h : Ideal.cmp .olt (max x (-x)) (Ideal.ofBits .f32 0x7F800000#32) = 1#1) :
    ∃ r : ℝ, x = (r : EReal) := by
  rw [inf_word] at h
  induction x using EReal.rec with
  | bot => simp [Ideal.cmp] at h
  | coe r => exact ⟨r, rfl⟩
  | top => simp [Ideal.cmp] at h

/-- If "every entry's absolute value is below plus infinity" holds of an array, every entry is a real number. -/
theorem all_real {s : Shape} {axes : List (Fin s.rank)} (x : FVec Ideal s .f32)
    (hb : Cert.Pre_finite_inputs.S_.BroadcastsInDim s (![] : Fin 0 → Fin s.rank)) (hr : s.ReducesTo axes Cert.Pre_finite_inputs.S_)
    (hu : 0 < Cert.Pre_finite_inputs.S_.numel) (j : Cert.Pre_finite_inputs.S_.Idx)
    (h : Host.reduce IntOp.andi (cmpf .olt (Host.absf x) (broadcastInDim s ![] hb (constant (F := Ideal) Cert.Pre_finite_inputs.S_ .f32 0x7F800000#32)))
      (constantI Cert.Pre_finite_inputs.S_ 1 1#1) hr hu j = 1#1) (i : s.Idx) :
    ∃ r : ℝ, x i = (r : EReal) :=
  real_of_abs_lt (x i) (Host.reduce_andi_all _ _ hr hu j h i)

/-- Under the precondition the feature array and the two weight matrices hold real numbers. -/
theorem real_args [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
  ∧ (∀ i, ∃ r : ℝ, m ((c.tc : Thread _ _).loc Cert.KernelIdeal.main_arg2) i = (r : EReal))
  ∧ (∀ i, ∃ r : ℝ, m ((c.tc : Thread _ _).loc Cert.KernelIdeal.main_arg3) i = (r : EReal)) := by
  have h0 := congrFun (h c) ix0
  dsimp only [Cert.Pre_finite_inputs.fn, Cert.Pre_finite_inputs.fn_part1] at h0
  obtain ⟨h1, -⟩ := IntOp.andi_eq_one.1 h0
  obtain ⟨h2, h12⟩ := IntOp.andi_eq_one.1 h1
  obtain ⟨h3, h7⟩ := IntOp.andi_eq_one.1 h2
  exact ⟨all_real _ _ _ _ ix0 h3, all_real _ _ _ _ ix0 h7, all_real _ _ _ _ ix0 h12⟩

end Cert.KernelIdeal.Finite

end
-- ==== Proof.LibEdgeRows.lean ====
/-
  A gather and a scatter-add of whole rows along a list of edges, read by coordinates.

  `x[idx]` for a table `x` of `N` rows (of `D` entries, or of one number) and a column `idx` of `E` row numbers
  fetches, for entry `e` of the column, row `idx e` of the table, the number read as a signed integer and clamped into
  `[0, N − 1]`.  The scatter-add of `E` update rows at a column of `E` row numbers adds update row `e` onto row
  `idx e` of the operand, the number read as a signed integer and NOT clamped: an update whose number is negative or
  at least `N` is dropped.  So an update that lands on row `n` has a row number that is `n` itself, and a fetch
  through that same number reads row `n`.
-/
import Idealize.ShloMosaic.PureOps.Ideal
import Idealize.ShloMosaic.Lib.ValueIdx

noncomputable section

namespace Idealize.ShloMosaic.EdgeRows

open Idealize.ShloMosaic Idealize.ShloMosaic.ValueIdx

variable {α : Type}

/-- The column entry an edge reads its row number from. -/
abbrev colIdx {E D : Nat} (y : (⟨2, ![E, D]⟩ : Shape).Idx) : (⟨2, ![E, 1]⟩ : Shape).Idx :=
  fun a => match a with | ⟨0, _⟩ => ⟨(y 0).val, idx2_lt0 y⟩ | ⟨1, _⟩ => ⟨0, Nat.one_pos⟩

/-- The same for a rank-1 list of edges. -/
abbrev colIdx1 {E : Nat} (y : (⟨1, ![E]⟩ : Shape).Idx) : (⟨2, ![E, 1]⟩ : Shape).Idx :=
  fun a => match a with | ⟨0, _⟩ => ⟨(y 0).val, (y 0).isLt⟩ | ⟨1, _⟩ => ⟨0, Nat.one_pos⟩

/-- The dimension numbers of `x[idx]` for a table `[N, D]`, a column of row numbers `[E, 1]` and a result `[E, D]`. -/
abbrev rowsDims (N D E : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, q)`: entry `q` of the table's row `idx e`, the number read signed and clamped. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (y : (⟨2, ![E, D]⟩ : Shape).Idx) :
    Host.gather (rowsDims N D E wf) x idx y
      = x (ix2 (n0 := N) (n1 := D) ⟨min (idx (colIdx y)).toInt.toNat (N - 1), by omega⟩ ⟨(y 1).val, idx2_lt1 y⟩) := by
  unfold Host.gather
  congr 1
  funext a
  refine Fin.ext ?_
  match a with
  | ⟨0, _⟩ =>
    show (rowsDims N D E wf).start y idx 0 + (rowsDims N D E wf).batchCoord y 0 + (rowsDims N D E wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D E wf).startIndexMap from List.mem_singleton.mpr rfl)]
    have hsi : (rowsDims N D E wf).siIdx y ⟨List.idxOf (0 : Fin 2) (rowsDims N D E wf).startIndexMap,
        List.idxOf_lt_length_iff.2 (List.mem_singleton.mpr rfl)⟩ = colIdx y := by
      funext b; refine Fin.ext ?_
      match b with
      | ⟨0, _⟩ => rfl
      | ⟨1, _⟩ => rfl
    rw [hsi]
    rfl
  | ⟨1, _⟩ =>
    show (rowsDims N D E wf).start y idx 1 + (rowsDims N D E wf).batchCoord y 1 + (rowsDims N D E wf).offCoord y 1 = (y 1).val
    rw [GatherDims.batchCoord_eq_zero _ _ _ List.not_mem_nil]
    unfold GatherDims.start
    rw [dif_neg (show (1 : Fin 2) ∉ (rowsDims N D E wf).startIndexMap from (by decide : (1 : Fin 2) ∉ ([0] : List (Fin 2))))]
    simp only [Nat.add_zero, Nat.zero_add]
    unfold GatherDims.offCoord
    rw [dif_pos (show (1 : Fin 2) ∈ (rowsDims N D E wf).sKept from
      (GatherDims.mem_sKept _ _).mpr ⟨(by decide : (1 : Fin 2) ∉ ([0] : List (Fin 2))), List.not_mem_nil⟩)]
    rfl

/-- The dimension numbers of `x[idx]` for a flat table `[N]`, a column of numbers `[E, 1]` and a result `[E]`. -/
abbrev entriesDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT `e`: the table's entry `idx e`, the number read signed and clamped. -/
theorem gather_entries_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (entriesDims N E wf) x idx y
      = x (ix1 (n := N) ⟨min (idx (colIdx1 y)).toInt.toNat (N - 1), by omega⟩) := by
  unfold Host.gather
  congr 1
  funext a
  obtain rfl : a = 0 := Subsingleton.elim _ _
  refine Fin.ext ?_
  show (entriesDims N E wf).start y idx 0 + (entriesDims N E wf).batchCoord y 0 + (entriesDims N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesDims N E wf).startIndexMap from List.mem_singleton.mpr rfl)]
  have hsi : (entriesDims N E wf).siIdx y ⟨List.idxOf (0 : Fin 1) (entriesDims N E wf).startIndexMap,
      List.idxOf_lt_length_iff.2 (List.mem_singleton.mpr rfl)⟩ = colIdx1 y := by
    funext b; refine Fin.ext ?_
    match b with
    | ⟨0, _⟩ => rfl
    | ⟨1, _⟩ => rfl
  rw [hsi]
  rfl

/-- The dimension numbers of a scatter of update rows `[E, D]` at a column of row numbers `[E, 1]` onto `[N, D]`. -/
abbrev rowsScatter (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- AN UPDATE THAT LANDS ON ROW `n` HAS ROW NUMBER `n`: if update entry `j` lands at `i`, the number its edge
    carries is not negative and is `i`'s row. -/
theorem scatter_rows_target {N D E w : Nat}
    (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx)
    (h : (rowsScatter N D E wf).resultIdx? j idx = some i) :
    0 ≤ (idx (colIdx j)).toInt ∧ (idx (colIdx j)).toInt.toNat = (i 0).val := by
  have hs : (rowsScatter N D E wf).start j idx 0 = (idx (colIdx j)).toInt := by
    unfold ScatterDims.start
    rw [dif_pos (show (0 : Fin 2) ∈ (rowsScatter N D E wf).scatterDimsToOperandDims from List.mem_singleton.mpr rfl)]
    have hsi : (rowsScatter N D E wf).siIdx j ⟨List.idxOf (0 : Fin 2) (rowsScatter N D E wf).scatterDimsToOperandDims,
        List.idxOf_lt_length_iff.2 (List.mem_singleton.mpr rfl)⟩ = colIdx j := by
      funext b; refine Fin.ext ?_
      match b with
      | ⟨0, _⟩ => rfl
      | ⟨1, _⟩ => rfl
    rw [hsi]
  have hw : (rowsScatter N D E wf).window j 0 = 0 := by
    unfold ScatterDims.window
    rw [dif_neg (show (0 : Fin 2) ∉ (rowsScatter N D E wf).sKept by
      simp [ScatterDims.sKept, Shape.kept, List.mem_filter])]
  unfold ScatterDims.resultIdx? at h
  split at h
  · rename_i hall
    have h0 := hall 0
    rw [hs, hw] at h0
    have hi : (i 0).val = ((rowsScatter N D E wf).start j idx 0 + ((rowsScatter N D E wf).window j 0 : Nat)).toNat := by
      rw [← Option.some.inj h]
    rw [hs, hw] at hi
    simp only [Nat.cast_zero, add_zero] at h0 hi
    exact ⟨h0.1, hi.symm⟩
  · exact absurd h (by simp)

end Idealize.ShloMosaic.EdgeRows

end
-- ==== Proof.KernelRead.lean ====
/-
  The kernel's host stages read at an index.

  Entry (n, o) of the per-node sums is a sum over the edges that land on row n: each such edge contributes entry o of
  the projected row of its source times the source's weight.  The source row of an edge is its source number raised
  by 100000 when negative and clamped into the table; the weights' column holds node n's weight at (n, 0).
-/
import proofs.«125581_j45122926412247_2_alg».proof.Proof.HostValue
import proofs.«125581_j45122926412247_2_alg».proof.Proof.LibEdgeRows
import Idealize.ShloMosaic.Lib.Pipeline.Value
import Idealize.ShloMosaic.Lib.ValueIdx
import Idealize.ShloMosaic.PureOps.Ideal.Laws

set_option maxRecDepth 16384

noncomputable section

namespace Cert.KernelIdeal.KernelRead

open Idealize.ShloMosaic Idealize.ShloMosaic.TcCoe Idealize.ShloMosaic.ValueIdx Idealize.ShloMosaic.EdgeRows
open Cert.KernelIdeal Cert.KernelIdeal.Gen Cert.KernelIdeal.HostValue

/-- The program's row gather is the gather of whole rows along a column of row numbers. -/
theorem gather_eq : gather_S100000x128_S1700000x1_S1700000x128_1_0_n_n_0_1_1128
    = rowsDims 100000 128 1700000 gather_S100000x128_S1700000x1_S1700000x128_1_0_n_n_0_1_1128.wf := rfl

/-- The program's row scatter is the scatter of whole rows along a column of row numbers. -/
theorem scatter_eq : scatter_S100000x128_S1700000x1_S1700000x128_1_0_0_1
    = rowsScatter 100000 128 1700000 scatter_S100000x128_S1700000x1_S1700000x128_1_0_0_1.wf := rfl

/-- The targets as the column the scatter reads. -/
def dstCol (x1 : IVec S2x1600000 32) : IVec S1700000x1 32 :=
  broadcastInDim S1700000x1 ![0] bcast_S1700000_S1700000x1_0 (dstOf x1)

/-- The table row an edge fetches through a column of row numbers: the number read signed, clamped into the table. -/
def rowOf (idx : IVec S1700000x1 32) (j : S1700000x128.Idx) : Fin 100000 :=
  ⟨min (idx (colIdx j)).toInt.toNat (100000 - 1), by omega⟩

/-- A node's weight broadcast along its row. -/
theorem weight_row (d : FVec Ideal S100000 .f32) (n : S100000x128.Idx) :
    broadcastInDim S100000x128 ![0, 1] bcast_S100000x1_S100000x128_0_1 (broadcastInDim S100000x1 ![0] bcast_S100000_S100000x1_0 d) n
      = d (ix1 (n := 100000) ⟨(n 0).val, idx2_lt0 n⟩) := by
  rw [broadcastInDim_apply _ bcast_S100000x1_S100000x128_0_1 _ n (ix2 (n0 := 100000) (n1 := 1) ⟨(n 0).val, idx2_lt0 n⟩ ⟨0, Nat.one_pos⟩) (fun a => match a with
    | ⟨0, _⟩ => by show (n 0).val = if (100000 : Nat) = 1 then 0 else (n 0).val; rw [if_neg (by decide)]
    | ⟨1, _⟩ => by show 0 = if (1 : Nat) = 1 then 0 else (n 1).val; rw [if_pos rfl])]
  exact broadcastInDim_apply _ bcast_S100000_S100000x1_0 d _ (ix1 (n := 100000) ⟨(n 0).val, idx2_lt0 n⟩) (fun a => match a with
    | ⟨0, _⟩ => by show (n 0).val = if (100000 : Nat) = 1 then 0 else (n 0).val; rw [if_neg (by decide)])

/-- A scatter-add, along target numbers `ds`, of rows fetched along row numbers `fe` from a table `H` whose row
    `n` is first scaled by `D n`: each element adds, over the updates that land on it, the fetched entry times the
    fetched row's scale. -/
theorem agg_generic (ds : IVec S1700000 32) (fe : IVec S1700000x1 32) (D : FVec Ideal S100000 .f32) (H : FVec Ideal S100000x128 .bf16) :
    Host.scatterAdd scatter_S100000x128_S1700000x1_S1700000x128_1_0_0_1
      (broadcastInDim S100000x128 ![] bcast_S_S100000x128 (constant (F := Ideal) S_ .f32 0x00000000#32))
      (broadcastInDim S1700000x1 ![0] bcast_S1700000_S1700000x1_0 ds)
      (extf .f32 (Host.gather gather_S100000x128_S1700000x1_S1700000x128_1_0_n_n_0_1_1128
        (truncf .bf16 (mulf (extf .f32 H bitsLt_bf16_f32)
          (broadcastInDim S100000x128 ![0, 1] bcast_S100000x1_S100000x128_0_1 (broadcastInDim S100000x1 ![0] bcast_S100000_S100000x1_0 D))) bitsLt_bf16_f32)
        fe) bitsLt_bf16_f32)
    = Ideal.hostScatterAdd (rowsScatter 100000 128 1700000 scatter_S100000x128_S1700000x1_S1700000x128_1_0_0_1.wf)
      (fun _ => (0 : EReal)) (broadcastInDim S1700000x1 ![0] bcast_S1700000_S1700000x1_0 ds)
      (fun j => H (ix2 (n0 := 100000) (n1 := 128) (rowOf fe j) ⟨(j 1).val, idx2_lt1 j⟩) * D (ix1 (n := 100000) (rowOf fe j))) := by
  show Ideal.hostScatterAdd (rowsScatter 100000 128 1700000 scatter_S100000x128_S1700000x1_S1700000x128_1_0_0_1.wf) _ _ _ = _
  refine congr (congrArg₂ (Ideal.hostScatterAdd _) ?_ rfl) ?_
  · funext i
    rw [broadcastInDim_apply _ bcast_S_S100000x128 _ i (fun a => a.elim0) (fun a => a.elim0)]
    exact Ideal.ofBits_zero_f32
  · funext j
    refine (gather_rows_apply (N := 100000) (D := 128) (E := 1700000) (by decide)
      gather_S100000x128_S1700000x1_S1700000x128_1_0_n_n_0_1_1128.wf
      (fun n => H n * broadcastInDim S100000x128 ![0, 1] bcast_S100000x1_S100000x128_0_1 (broadcastInDim S100000x1 ![0] bcast_S100000_S100000x1_0 D) n)
      fe j).trans ?_
    rw [weight_row]
    rfl

/-- THE PER-NODE SUMS: each node adds, over the edges that land on it, the source's projected row times the
    source's weight. -/
theorem aggOf_eq (x1 : IVec S2x1600000 32) (H : FVec Ideal S100000x128 .bf16) :
    aggOf x1 H = Ideal.hostScatterAdd (rowsScatter 100000 128 1700000 scatter_S100000x128_S1700000x1_S1700000x128_1_0_0_1.wf)
      (fun _ => (0 : EReal)) (dstCol x1)
      (fun j => H (ix2 (n0 := 100000) (n1 := 128) (rowOf (fetchOf x1) j) ⟨(j 1).val, idx2_lt1 j⟩) * dinvOf x1 (ix1 (n := 100000) (rowOf (fetchOf x1) j))) :=
  agg_generic (dstOf x1) (fetchOf x1) (dinvOf x1) H

end Cert.KernelIdeal.KernelRead

end
-- ==== Proof.RefValue.lean ====
/-
  The reference's stages read at an index.

  The reference normalizes the rows of `sums + bias`; entry (n, o) of the sums adds, over the edges that land on row
  n, entry o of the projected row of the edge's source times the source's weight times the weight fetched through the
  edge's target number.  A fetch raises a negative number by 100000 and clamps it into the table.
-/
import proofs.«125581_j45122926412247_2_alg».proof.Proof.RefRead
import proofs.«125581_j45122926412247_2_alg».proof.Proof.LibEdgeRows
import proofs.«125581_j45122926412247_2_alg».proof.Proof.Spec
import Idealize.ShloMosaic.PureOps.Ideal.Laws

set_option maxRecDepth 16384

noncomputable section

namespace Cert.ReferenceIdeal.RefValue

open Idealize.ShloMosaic Idealize.ShloMosaic.TcCoe Idealize.ShloMosaic.ValueIdx Idealize.ShloMosaic.EdgeRows
open Cert.ReferenceIdeal Cert.ReferenceIdeal.Gen Cert.ReferenceIdeal.Read
open scoped BigOperators

variable {α : Type}

/-! ## The broadcasts of a column and of a list, by coordinates -/

theorem row_bcast (y : S100000x1.Idx → α) (i : S100000x128.Idx) :
    broadcastInDim S100000x128 ![0, 1] bcast_S100000x1_S100000x128_0_1 y i
      = y (ix2 (n0 := 100000) (n1 := 1) ⟨(i 0).val, idx2_lt0 i⟩ ⟨0, Nat.one_pos⟩) :=
  broadcastInDim_apply _ bcast_S100000x1_S100000x128_0_1 y i _ (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

theorem col_bcast (y : S100000.Idx → α) (i : S100000x1.Idx) :
    broadcastInDim S100000x1 ![0] bcast_S100000_S100000x1_0 y i = y (ix1 (n := 100000) ⟨(i 0).val, idx2_lt0 i⟩) :=
  broadcastInDim_apply _ bcast_S100000_S100000x1_0 y i _ (fun a => match a with
    | ⟨0, _⟩ => by show (i 0).val = if (100000 : Nat) = 1 then 0 else (i 0).val; rw [if_neg (by decide)])

theorem edge_row_bcast (y : S1700000x1.Idx → α) (j : S1700000x128.Idx) :
    broadcastInDim S1700000x128 ![0, 1] bcast_S1700000x1_S1700000x128_0_1 y j = y (colIdx j) :=
  broadcastInDim_apply _ bcast_S1700000x1_S1700000x128_0_1 y j _ (fun a => match a with
    | ⟨0, _⟩ => by show (j 0).val = if (1700000 : Nat) = 1 then 0 else (j 0).val; rw [if_neg (by decide)]
    | ⟨1, _⟩ => by show 0 = if (1 : Nat) = 1 then 0 else (j 1).val; rw [if_pos rfl])

theorem edge_col_bcast (y : S1700000.Idx → α) (e : S1700000x1.Idx) :
    broadcastInDim S1700000x1 ![0] bcast_S1700000_S1700000x1_0 y e = y (ix1 (n := 1700000) ⟨(e 0).val, idx2_lt0 e⟩) :=
  broadcastInDim_apply _ bcast_S1700000_S1700000x1_0 y e _ (fun a => match a with
    | ⟨0, _⟩ => by show (e 0).val = if (1700000 : Nat) = 1 then 0 else (e 0).val; rw [if_neg (by decide)])

/-! ## The sums -/

/-- The table row an edge fetches through a column of row numbers: the number read signed, clamped into the table. -/
def rowOf (idx : IVec S1700000x1 32) (j : S1700000x128.Idx) : Fin 100000 :=
  ⟨min (idx (colIdx j)).toInt.toNat (100000 - 1), by omega⟩

/-- The edge of an update entry, as a rank-1 list indexes it, reads the same column entry. -/
theorem edge_col (j : S1700000x128.Idx) :
    colIdx1 (ix1 (n := 1700000) ⟨(colIdx j 0).val, idx2_lt0 (colIdx j)⟩) = colIdx j :=
  funext fun a => by
    match a with
    | ⟨0, _⟩ => rfl
    | ⟨1, _⟩ => rfl

/-- A scatter-add, along target numbers `i45`, of table rows `H` fetched along `i39`, each scaled by the product of
    two weights `D` fetched along `i24` and along `i31`: every element adds, over the updates that land on it, the
    fetched entry times the two fetched weights. -/
theorem sums_generic (H : S100000x128.Idx → EReal) (D : S100000.Idx → EReal) (i39 i24 i31 i45 : IVec S1700000x1 32) :
    Host.scatterAdd (F := Ideal) (φ := .f32) scatter_S100000x128_S1700000x1_S1700000x128_1_0_0_1
      (broadcastInDim S100000x128 ![] bcast_S_S100000x128 (constant (F := Ideal) S_ .f32 0x00000000#32)) i45
      (mulf (F := Ideal) (φ := .f32) (Host.gather gather_S100000x128_S1700000x1_S1700000x128_1_0_n_n_0_1_1128 H i39)
        (broadcastInDim S1700000x128 ![0, 1] bcast_S1700000x1_S1700000x128_0_1 (broadcastInDim S1700000x1 ![0] bcast_S1700000_S1700000x1_0
          (mulf (F := Ideal) (φ := .f32) (Host.gather gather_S100000_S1700000x1_S1700000_n_0_n_n_0_1_1 D i24)
            (Host.gather gather_S100000_S1700000x1_S1700000_n_0_n_n_0_1_1 D i31)))))
    = Ideal.hostScatterAdd (rowsScatter 100000 128 1700000 scatter_S100000x128_S1700000x1_S1700000x128_1_0_0_1.wf)
        (fun _ => (0 : EReal)) i45
        (fun j => H (ix2 (n0 := 100000) (n1 := 128) (rowOf i39 j) ⟨(j 1).val, idx2_lt1 j⟩)
          * (D (ix1 (n := 100000) (rowOf i24 j)) * D (ix1 (n := 100000) (rowOf i31 j)))) := by
  show Ideal.hostScatterAdd (rowsScatter 100000 128 1700000 scatter_S100000x128_S1700000x1_S1700000x128_1_0_0_1.wf) _ _ _ = _
  refine congr (congrArg₂ (Ideal.hostScatterAdd _) ?_ rfl) ?_
  · funext i
    rw [broadcastInDim_apply _ bcast_S_S100000x128 _ i (fun a => a.elim0) (fun a => a.elim0)]
    exact Ideal.ofBits_zero_f32
  · funext j
    show Host.gather gather_S100000x128_S1700000x1_S1700000x128_1_0_n_n_0_1_1128 H i39 j * _ = _
    rw [edge_row_bcast, edge_col_bcast]
    refine congrArg₂ (· * ·) ?_ (congrArg₂ (· * ·) ?_ ?_)
    · exact gather_rows_apply (N := 100000) (D := 128) (E := 1700000) (by decide)
        gather_S100000x128_S1700000x1_S1700000x128_1_0_n_n_0_1_1128.wf H i39 j
    · refine (gather_entries_apply (N := 100000) (E := 1700000) (by decide)
        gather_S100000_S1700000x1_S1700000_n_0_n_n_0_1_1.wf D i24 _).trans ?_
      refine congrArg (fun z => D (ix1 (n := 100000) z)) (Fin.ext ?_)
      show min _ (100000 - 1) = min _ (100000 - 1)
      rw [edge_col]
    · refine (gather_entries_apply (N := 100000) (E := 1700000) (by decide)
        gather_S100000_S1700000x1_S1700000_n_0_n_n_0_1_1.wf D i31 _).trans ?_
      refine congrArg (fun z => D (ix1 (n := 100000) z)) (Fin.ext ?_)
      show min _ (100000 - 1) = min _ (100000 - 1)
      rw [edge_col]

/-- THE REFERENCE'S SUMS: each node adds, over the edges that land on it, the source's projected row times the
    source's weight times the weight fetched through the target number. -/
theorem sums_eq (x0 : (⟨S100000x256, .f32⟩ : BufTy).Contents (Elt Ideal)) (x1 : (⟨S2x1600000, .i32⟩ : BufTy).Contents (Elt Ideal))
    (x2 : (⟨S128x256, .f32⟩ : BufTy).Contents (Elt Ideal)) (x3 : (⟨S128x128, .f32⟩ : BufTy).Contents (Elt Ideal)) :
    val_main_v46 (F := Ideal) x0 x1 x2 x3
      = Ideal.hostScatterAdd (rowsScatter 100000 128 1700000 scatter_S100000x128_S1700000x1_S1700000x128_1_0_0_1.wf)
          (fun _ => (0 : EReal)) (val_main_v45 (F := Ideal) x1)
          (fun j => val_main_v3 (F := Ideal) x0 x2 x3 (ix2 (n0 := 100000) (n1 := 128) (rowOf (val_main_v39 (F := Ideal) x1) j) ⟨(j 1).val, idx2_lt1 j⟩)
            * (val_main_v18 (F := Ideal) x1 (ix1 (n := 100000) (rowOf (val_main_v24 (F := Ideal) x1) j))
              * val_main_v18 (F := Ideal) x1 (ix1 (n := 100000) (rowOf (val_main_v31 (F := Ideal) x1) j)))) := by
  unfold val_main_v46 val_main_v44 val_main_cst_8 val_main_v43 val_main_v42 val_main_v41 val_main_v40 val_main_v33 val_main_v32 val_main_v25
  exact sums_generic _ _ _ _ _ _

/-! ## An edge that lands on a row fetches that row's weight -/

/-- A number that is not negative is not raised. -/
theorem wrap_nonneg (t a : BitVec 32) (h : 0 ≤ t.toInt) : Scalar.select (IntOp.cmpi .slt t 0#32) a t = t := by
  have hs : t.slt 0#32 = false := by
    rw [BitVec.slt, decide_eq_false_iff_not]
    show ¬ t.toInt < (0#32 : BitVec 32).toInt
    rw [show (0#32 : BitVec 32).toInt = 0 from rfl]
    omega
  show Scalar.select (BitVec.ofBool (t.slt 0#32)) a t = t
  rw [hs]
  rfl

/-- The target column and the fetch column read the same edge. -/
theorem edge_idx (j : S1700000x128.Idx) : idx_main_v31 (colIdx j) = idx_main_v45 (colIdx j) :=
  funext fun a => by
    match a with
    | ⟨0, _⟩ => rfl

/-- AN EDGE THAT LANDS ON ROW `n` FETCHES THE WEIGHT OF NODE `n`: its target number is `n` itself, so it is not
    negative, the raise by 100000 does not apply, and the clamp does nothing. -/
theorem target_row (x1 : (⟨S2x1600000, .i32⟩ : BufTy).Contents (Elt Ideal)) (j : S1700000x128.Idx) (i : S100000x128.Idx)
    (h : (rowsScatter 100000 128 1700000 scatter_S100000x128_S1700000x1_S1700000x128_1_0_0_1.wf).resultIdx? j (val_main_v45 (F := Ideal) x1) = some i) :
    rowOf (val_main_v31 (F := Ideal) x1) j = ⟨(i 0).val, idx2_lt0 i⟩ := by
  obtain ⟨h0, h1⟩ := scatter_rows_target _ (val_main_v45 (F := Ideal) x1) j i h
  have e : val_main_v31 (F := Ideal) x1 (colIdx j) = val_main_v45 (F := Ideal) x1 (colIdx j) := by
    rw [val_main_v45_apply] at h0
    rw [val_main_v31_apply, val_main_v30_apply, val_main_v27_apply, val_main_v26_apply, val_main_c_4_apply, val_main_v45_apply, edge_idx]
    exact wrap_nonneg _ _ h0
  have hi := idx2_lt0 i
  refine Fin.ext ?_
  show min (val_main_v31 (F := Ideal) x1 (colIdx j)).toInt.toNat (100000 - 1) = (i 0).val
  rw [e, h1]
  omega

/-! ## The bias and the normalization -/

/-- The bias row added to every row of the sums. -/
theorem biased_apply (x0 : (⟨S100000x256, .f32⟩ : BufTy).Contents (Elt Ideal)) (x1 : (⟨S2x1600000, .i32⟩ : BufTy).Contents (Elt Ideal))
    (x2 : (⟨S128x256, .f32⟩ : BufTy).Contents (Elt Ideal)) (x3 : (⟨S128x128, .f32⟩ : BufTy).Contents (Elt Ideal))
    (x4 : (⟨S128, .f32⟩ : BufTy).Contents (Elt Ideal)) (i : S100000x128.Idx) :
    val_main_v49 (F := Ideal) x0 x1 x2 x3 x4 i
      = val_main_v46 (F := Ideal) x0 x1 x2 x3 i + x4 (ix1 (n := 128) ⟨(i 1).val, idx2_lt1 i⟩) := by
  rw [val_main_v49_apply, val_main_v48_apply, val_main_v47_apply]
  refine congrArg (_ + ·) (congrArg x4 (funext fun a => by
    match a with
    | ⟨0, _⟩ => rfl))

/-- The host's division and square root of arrays of extended reals, at an index. -/
theorem hdiv_apply {s : Shape} {φ : FTy} (a b : FVec Ideal s φ) (i : s.Idx) : Host.divf a b i = Ideal.div (a i) (b i) := rfl
theorem hsqrt_apply {s : Shape} {φ : FTy} (a : FVec Ideal s φ) (i : s.Idx) : Host.sqrt a i = Ideal.sqrt (a i) := rfl
theorem hrsqrt_apply {s : Shape} {φ : FTy} (a : FVec Ideal s φ) (i : s.Idx) : Host.rsqrt a i = Ideal.rsqrt (a i) := rfl

/-- Rows divided by their clamped Euclidean norms, as the host operations spell it, for any array `V`. -/
theorem normalize_generic (V : S100000x128.Idx → EReal) :
    Host.divf (F := Ideal) (φ := .f32) V (broadcastInDim S100000x128 ![0, 1] bcast_S100000x1_S100000x128_0_1
      (maximumf (F := Ideal) (φ := .f32) (Host.sqrt (F := Ideal) (φ := .f32) (broadcastInDim S100000x1 ![0] bcast_S100000_S100000x1_0
          (Host.reduceAdd (F := Ideal) (φ := .f32) (mulf (F := Ideal) (φ := .f32) V V) (constant (F := Ideal) S_ .f32 0x00000000#32) reducesTo_S100000x128_S100000_d1 h_S_)))
        (broadcastInDim S100000x1 ![] bcast_S_S100000x1 (constant (F := Ideal) S_ .f32 0x2B8CBCCC#32))))
      = Cert.Spec.normalize (Ideal.ofBits .f32 0x2B8CBCCC#32) V := by
  funext i
  unfold Cert.Spec.normalize
  rw [hdiv_apply, row_bcast, maximumf_apply, hsqrt_apply, col_bcast,
    broadcastInDim_apply _ bcast_S_S100000x1 _ _ (fun a => a.elim0) (fun a => a.elim0), constant_apply]
  simp only [Host.reduceAdd, Ideal.hostReduceAdd_def]
  rw [Ideal.hostReduceAdd_single reducesTo_S100000x128_S100000_d1 (by decide), constant_apply, Ideal.ofBits_zero_f32, zero_add]
  refine congrArg (fun s => Ideal.div (V i) (max (Ideal.sqrt s) _)) (Finset.sum_congr rfl fun k _ => ?_)
  rw [mulf_apply]
  have e : (Shape.Reduces.lift (by decide : S100000x128.Reduces [1] S100000) (ix1 (n := 100000) ⟨(i 0).val, idx2_lt0 i⟩) k : S100000x128.Idx)
      = ix2 (n0 := 100000) (n1 := 128) (i 0) k := funext fun a => Fin.ext (by
    match a with
    | ⟨0, _⟩ => rfl
    | ⟨1, _⟩ => rfl)
  rw [e]

/-- THE REFERENCE'S RESULT: the rows of `sums + bias`, each divided by its clamped Euclidean norm. -/
theorem result_eq (x0 : (⟨S100000x256, .f32⟩ : BufTy).Contents (Elt Ideal)) (x1 : (⟨S2x1600000, .i32⟩ : BufTy).Contents (Elt Ideal))
    (x2 : (⟨S128x256, .f32⟩ : BufTy).Contents (Elt Ideal)) (x3 : (⟨S128x128, .f32⟩ : BufTy).Contents (Elt Ideal))
    (x4 : (⟨S128, .f32⟩ : BufTy).Contents (Elt Ideal)) :
    val_main_v57 (F := Ideal) x0 x1 x2 x3 x4
      = Cert.Spec.normalize (Ideal.ofBits .f32 0x2B8CBCCC#32) (val_main_v49 (F := Ideal) x0 x1 x2 x3 x4) := by
  unfold val_main_v57 val_main_v56 val_main_v55 val_main_v54 val_main_cst_10 val_main_v53 val_main_v52 val_main_v51 val_main_cst_9 val_main_v50
  exact normalize_generic _

end Cert.ReferenceIdeal.RefValue

end
-- ==== Proof.Algebra.lean ====
/-
  The two laws that join the kernel's arrangement to the reference's, on the extended reals.

  Both laws are laws of the real numbers (a product distributes over a finite sum; a double sum may be taken in
  either order), and neither holds on the extended reals in general: an infinite term breaks distributivity.  So each
  is stated for entries that ARE real numbers, the real witnesses are chosen, the coercion is pushed outside the
  sums and products, and the law is the real one.
-/
import Idealize.ShloMosaic.PureOps.Ideal

noncomputable section

open scoped BigOperators

namespace Cert.Algebra

open Idealize.ShloMosaic

/-- A finite sum of real numbers, read in the extended reals, is the sum of the readings. -/
theorem coe_sum {J : Type} (F : Finset J) (f : J → ℝ) : ((∑ j ∈ F, f j : ℝ) : EReal) = ∑ j ∈ F, (f j : EReal) := by
  classical
  induction F using Finset.induction_on with
  | empty => simp
  | insert a s ha ih => rw [Finset.sum_insert ha, Finset.sum_insert ha, EReal.coe_add, ih]

/-- A finite sum of products of real numbers is a real number. -/
theorem real_sum_mul {J : Type} (F : Finset J) (a b : J → EReal) (ha : ∀ j, ∃ r : ℝ, a j = r) (hb : ∀ j, ∃ r : ℝ, b j = r) :
    ∃ r : ℝ, ∑ j ∈ F, a j * b j = r := by
  choose ar har using ha
  choose br hbr using hb
  refine ⟨∑ j ∈ F, ar j * br j, ?_⟩
  rw [coe_sum]
  exact Finset.sum_congr rfl fun j _ => by rw [har j, hbr j, EReal.coe_mul]

/-- THE SCALING LAW.  Over any finite set of edges: if every edge carries a real row entry `a` and a real weight
    `b`, and the second weight `c` of every edge in the set is one and the same real number `d`, then scaling the sum
    by `d` afterwards is scaling every term by its own `c`. -/
theorem sum_scaled {J : Type} (F : Finset J) (a b c : J → EReal) (d : EReal)
    (ha : ∀ j, ∃ r : ℝ, a j = r) (hb : ∀ j, ∃ r : ℝ, b j = r) (hd : ∃ r : ℝ, d = r) (hc : ∀ j ∈ F, c j = d) :
    (0 + ∑ j ∈ F, a j * b j) * d = 0 + ∑ j ∈ F, a j * (b j * c j) := by
  choose ar har using ha
  choose br hbr using hb
  obtain ⟨dr, rfl⟩ := hd
  rw [zero_add, zero_add]
  rw [Finset.sum_congr rfl (fun j hj => by rw [har j, hbr j, hc j hj, ← EReal.coe_mul, ← EReal.coe_mul] :
    ∀ j ∈ F, a j * (b j * c j) = ((ar j * (br j * dr) : ℝ) : EReal))]
  rw [Finset.sum_congr rfl (fun j _ => by rw [har j, hbr j, ← EReal.coe_mul] :
    ∀ j ∈ F, a j * b j = ((ar j * br j : ℝ) : EReal))]
  rw [← coe_sum, ← coe_sum, ← EReal.coe_mul, Finset.sum_mul]
  congr 1
  exact Finset.sum_congr rfl fun j _ => by ring

/-- THE PRODUCT OF THREE MATRICES, one entry: a row `x` times (`p` times a column `g`) is (`x` times `p`) times
    `g`, when all entries are real numbers. -/
theorem dot_assoc {K L : Type} [Fintype K] [Fintype L] (x : K → EReal) (p : K → L → EReal) (g : L → EReal)
    (hx : ∀ k, ∃ r : ℝ, x k = r) (hp : ∀ k l, ∃ r : ℝ, p k l = r) (hg : ∀ l, ∃ r : ℝ, g l = r) :
    ∑ k, x k * (∑ l, p k l * g l) = ∑ l, (∑ k, x k * p k l) * g l := by
  choose xr hxr using hx
  choose pr hpr using hp
  choose gr hgr using hg
  have hL : ∀ k, x k * (∑ l, p k l * g l) = ((xr k * ∑ l, pr k l * gr l : ℝ) : EReal) := fun k => by
    rw [hxr k, EReal.coe_mul, coe_sum]
    exact congrArg _ (Finset.sum_congr rfl fun l _ => by rw [hpr k l, hgr l, EReal.coe_mul])
  have hR : ∀ l, (∑ k, x k * p k l) * g l = (((∑ k, xr k * pr k l) * gr l : ℝ) : EReal) := fun l => by
    rw [hgr l, EReal.coe_mul, coe_sum]
    exact congrArg (· * _) (Finset.sum_congr rfl fun k _ => by rw [hxr k, hpr k l, EReal.coe_mul])
  rw [Finset.sum_congr rfl (fun k _ => hL k), Finset.sum_congr rfl (fun l _ => hR l), ← coe_sum, ← coe_sum]
  congr 1
  simp only [Finset.mul_sum, Finset.sum_mul]
  rw [Finset.sum_comm]
  exact Finset.sum_congr rfl fun l _ => Finset.sum_congr rfl fun k _ => by ring

/-- THE SCALING LAW OVER A SCATTER-ADD into zeros: if every update that lands on element `i` carries, as its second
    weight, the one real number `dv i`, scaling element `i` of the sums by `dv i` is scaling each update by its own. -/
theorem scatter_scaled {s si su : Shape} (d : ScatterDims s si su) {w : Nat} (idx : IVec si w) (a b c : su.Idx → EReal)
    (dv : s.Idx → EReal) (ha : ∀ j, ∃ r : ℝ, a j = r) (hb : ∀ j, ∃ r : ℝ, b j = r) (hd : ∀ i, ∃ r : ℝ, dv i = r)
    (hc : ∀ j i, d.resultIdx? j idx = some i → c j = dv i) (i : s.Idx) :
    Ideal.hostScatterAdd d (fun _ => (0 : EReal)) idx (fun j => a j * b j) i * dv i
      = Ideal.hostScatterAdd d (fun _ => (0 : EReal)) idx (fun j => a j * (b j * c j)) i := by
  unfold Ideal.hostScatterAdd
  exact sum_scaled _ a b c (dv i) ha hb (hd i) (fun j hj => hc j i (Finset.mem_filter.mp hj).2)

/-- The reciprocal square root of a positive extended real is a real number (of `+∞` it is zero). -/
theorem rsqrt_real_of_pos (y : EReal) (h : 0 < y) : ∃ r : ℝ, Ideal.rsqrt y = r := by
  induction y using EReal.rec with
  | bot => exact absurd h (not_lt.mpr bot_le)
  | top => exact ⟨0, by rw [Ideal.rsqrt_top, EReal.coe_zero]⟩
  | coe r =>
    have hr : 0 < r := EReal.coe_pos.mp h
    exact ⟨(Real.sqrt r)⁻¹, by rw [Ideal.rsqrt_coe, if_neg (not_lt.mpr hr.le), if_neg hr.ne']⟩

/-- A node's weight — the reciprocal square root of its degree where the degree is positive, else a real number — is
    a real number, whatever the degree. -/
theorem weight_real (y z : EReal) (hz : ∃ r : ℝ, z = r) :
    ∃ r : ℝ, Scalar.select (Ideal.cmp .ogt y 0) (Ideal.rsqrt y) z = r := by
  unfold Scalar.select
  split
  · rename_i h
    refine rsqrt_real_of_pos y ?_
    by_contra hn
    simp [Ideal.cmp, hn] at h
  · exact hz

end Cert.Algebra

end
-- ==== Proof.Weights.lean ====
/-
  The product of the two weight matrices, entry by entry.

  The program multiplies the transposed projection matrix (256 × 128, the transpose of Wp : 128 × 256) by the
  transposed second matrix (128 × 128, the transpose of Wg) before its first stage.  Entry (l, o) of the product is the
  sum over the 128 inner coordinates k of (transpose Wp) (l, k) · (transpose Wg) (k, o), that is of Wp (k, l) · Wg (o, k).
-/
import proofs.«125581_j45122926412247_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Weights

open Idealize.ShloMosaic Idealize.ShloMosaic.TcCoe Idealize.ShloMosaic.ValueIdx Idealize.SL.Sem Cert.KernelIdeal Cert.KernelIdeal.Gen

/-! ## The operands' indices at an output index and an inner coordinate -/

/-- The left operand is read in the output's row … -/
theorem lhs_row (i : S256x128.Idx) (q : dot_S256x128_S128x128_S256x128_1_0_0_1_n_n.contr.Idx) :
    (dot_S256x128_S128x128_S256x128_1_0_0_1_n_n.lhsIdx i q 0).val = (i 0).val := by
  unfold DotDims.lhsIdx
  rw [dif_neg (show ¬(0 : Fin S256x128.rank) ∈ dot_S256x128_S128x128_S256x128_1_0_0_1_n_n.lhsBatch by decide),
    dif_pos (show (0 : Fin S256x128.rank) ∈ dot_S256x128_S128x128_S256x128_1_0_0_1_n_n.lhsNonContracting by decide)]
  rfl

/-- … at the inner coordinate; -/
theorem lhs_inner (i : S256x128.Idx) (q : dot_S256x128_S128x128_S256x128_1_0_0_1_n_n.contr.Idx) :
    (dot_S256x128_S128x128_S256x128_1_0_0_1_n_n.lhsIdx i q 1).val = (q ⟨0, by decide⟩).val :=
  dot_S256x128_S128x128_S256x128_1_0_0_1_n_n.lhsIdx_val_of_single rfl i q

/-- the right operand at the inner coordinate … -/
theorem rhs_inner (i : S256x128.Idx) (q : dot_S256x128_S128x128_S256x128_1_0_0_1_n_n.contr.Idx) :
    (dot_S256x128_S128x128_S256x128_1_0_0_1_n_n.rhsIdx i q 0).val = (q ⟨0, by decide⟩).val :=
  dot_S256x128_S128x128_S256x128_1_0_0_1_n_n.rhsIdx_val_of_single rfl i q

/-- … in the output's column. -/
theorem rhs_col (i : S256x128.Idx) (q : dot_S256x128_S128x128_S256x128_1_0_0_1_n_n.contr.Idx) :
    (dot_S256x128_S128x128_S256x128_1_0_0_1_n_n.rhsIdx i q 1).val = (i 1).val := by
  unfold DotDims.rhsIdx
  rw [dif_neg (show ¬(1 : Fin S128x128.rank) ∈ dot_S256x128_S128x128_S256x128_1_0_0_1_n_n.rhsBatch by decide),
    dif_pos (show (1 : Fin S128x128.rank) ∈ dot_S256x128_S128x128_S256x128_1_0_0_1_n_n.rhsNonContracting by decide)]
  rfl

/-! ## The product at an entry -/

/-- ENTRY (l, o) of the product of the two transposed matrices: the sum over the inner coordinate k of
    Wp (k, l) · Wg (o, k). -/
theorem weights_apply (x2 : FVec Ideal S128x256 .f32) (x3 : FVec Ideal S128x128 .f32) (l : Fin 256) (o : Fin 128) :
    Host.dotGeneral (F := Ideal) (φ₁ := .f32) (φ₂ := .f32) dot_S256x128_S128x128_S256x128_1_0_0_1_n_n none
        (transpose S256x128 [1, 0] x2 transposes_S128x256_S256x128_1_0)
        (transpose S128x128 [1, 0] x3 transposes_S128x128_S128x128_1_0) (ix2 l o)
      = ∑ k : Fin 128, x2 (ix2 k l) * x3 (ix2 o k) := by
  have ht2 : ∀ k : Fin 128, transpose S256x128 [1, 0] x2 transposes_S128x256_S256x128_1_0 (ix2 l k) = x2 (ix2 k l) :=
    fun k => transpose_apply [1, 0] x2 transposes_S128x256_S256x128_1_0 (ix2 l k) (ix2 k l) (fun b => match b with
      | ⟨0, _⟩ => rfl
      | ⟨1, _⟩ => rfl)
  have ht3 : ∀ k : Fin 128, transpose S128x128 [1, 0] x3 transposes_S128x128_S128x128_1_0 (ix2 k o) = x3 (ix2 o k) :=
    fun k => transpose_apply [1, 0] x3 transposes_S128x128_S128x128_1_0 (ix2 k o) (ix2 o k) (fun b => match b with
      | ⟨0, _⟩ => rfl
      | ⟨1, _⟩ => rfl)
  generalize transpose S256x128 [1, 0] x2 transposes_S128x256_S256x128_1_0 = y2 at ht2 ⊢
  generalize transpose S128x128 [1, 0] x3 transposes_S128x128_S128x128_1_0 = y3 at ht3 ⊢
  simp only [Host.dotGeneral]
  rw [Ideal.dotGeneral_apply, ← Equiv.sum_comp (contrEquiv1 dot_S256x128_S128x128_S256x128_1_0_0_1_n_n 128 rfl rfl).symm]
  refine Finset.sum_congr rfl fun k _ => ?_
  have hk := contrEquiv1_symm_val dot_S256x128_S128x128_S256x128_1_0_0_1_n_n 128 rfl rfl k
  have el : dot_S256x128_S128x128_S256x128_1_0_0_1_n_n.lhsIdx (ix2 l o) ((contrEquiv1 dot_S256x128_S128x128_S256x128_1_0_0_1_n_n 128 rfl rfl).symm k) = ix2 l k :=
    funext fun a => Fin.ext (by
      match a with
      | ⟨0, _⟩ => exact lhs_row _ _
      | ⟨1, _⟩ => exact (lhs_inner _ _).trans hk)
  have er : dot_S256x128_S128x128_S256x128_1_0_0_1_n_n.rhsIdx (ix2 l o) ((contrEquiv1 dot_S256x128_S128x128_S256x128_1_0_0_1_n_n 128 rfl rfl).symm k) = ix2 k o :=
    funext fun a => Fin.ext (by
      match a with
      | ⟨0, _⟩ => exact (rhs_inner _ _).trans hk
      | ⟨1, _⟩ => exact rhs_col _ _)
  rw [el, er, ht2 k, ht3 k]

end Cert.KernelIdeal.Weights

end
-- ==== Proof.Bridge.lean ====
/-
  The kernel's result and the reference's result are one function of the arguments.

  Both normalize the rows of `sums + bias`.  The kernel's sums are scaled by the target's weight AFTER the summation
  over edges, the reference's BEFORE it, through a weight fetched by the edge's target number: for an edge that lands
  on row n that number is n, so the fetched weight is node n's, and a real factor moves across a finite sum of reals.
  The projected rows agree because the product of three real matrices associates.  The float arguments hold real
  numbers by the precondition; the weights are real numbers whatever the degrees are.
-/
import proofs.«125581_j45122926412247_2_alg».proof.Proof.KernelValue
import proofs.«125581_j45122926412247_2_alg».proof.Proof.KernelRead
import proofs.«125581_j45122926412247_2_alg».proof.Proof.RefValue
import proofs.«125581_j45122926412247_2_alg».proof.Proof.Algebra
import proofs.«125581_j45122926412247_2_alg».proof.Proof.Weights

set_option maxRecDepth 16384

noncomputable section

namespace Cert.Bridge

open Idealize.ShloMosaic Idealize.ShloMosaic.TcCoe Idealize.ShloMosaic.ValueIdx Idealize.ShloMosaic.EdgeRows
open Cert.KernelIdeal Cert.KernelIdeal.Gen Cert.KernelIdeal.HostValue Cert.KernelIdeal.KernelRead Cert.KernelIdeal.KernelValue
open scoped BigOperators

/-! ## The two programs' host stages are the same functions of the edge list -/

theorem dst_eq (x1 : IVec S2x1600000 32) : Cert.ReferenceIdeal.Read.val_main_v45 (F := Ideal) x1 = dstCol x1 := rfl
theorem fetch39_eq (x1 : IVec S2x1600000 32) : Cert.ReferenceIdeal.Read.val_main_v39 (F := Ideal) x1 = fetchOf x1 := rfl
theorem fetch24_eq (x1 : IVec S2x1600000 32) : Cert.ReferenceIdeal.Read.val_main_v24 (F := Ideal) x1 = fetchOf x1 := rfl
theorem dinv_eq (x1 : IVec S2x1600000 32) : Cert.ReferenceIdeal.Read.val_main_v18 (F := Ideal) x1 = dinvOf x1 := rfl
theorem rowOf_eq (idx : IVec S1700000x1 32) (j : S1700000x128.Idx) : Cert.ReferenceIdeal.RefValue.rowOf idx j = rowOf idx j := rfl

/-! ## Real numbers -/

/-- The combined weight matrix of two real matrices is real. -/
theorem weights_real (x2 : FVec Ideal S128x256 .f32) (x3 : FVec Ideal S128x128 .f32)
    (h2 : ∀ i, ∃ r : ℝ, x2 i = r) (h3 : ∀ i, ∃ r : ℝ, x3 i = r) (l : Fin 256) (o : Fin 128) :
    ∃ r : ℝ, weightsOf x2 x3 (ix2 l o) = r := by
  unfold weightsOf
  rw [Cert.KernelIdeal.Weights.weights_apply]
  exact Cert.Algebra.real_sum_mul _ _ _ (fun k => h2 _) (fun k => h3 _)

/-- The projected rows of real features by a real matrix are real. -/
theorem proj_real (x0 : FVec Ideal S100000x256 .f32) (W : FVec Ideal S256x128 .f32)
    (h0 : ∀ i, ∃ r : ℝ, x0 i = r) (hW : ∀ (l : Fin 256) (o : Fin 128), ∃ r : ℝ, W (ix2 l o) = r) (n : S100000x128.Idx) :
    ∃ r : ℝ, Cert.Spec.proj x0 W n = r := by
  unfold Cert.Spec.proj
  exact Cert.Algebra.real_sum_mul _ _ _ (fun k => h0 _) (fun k => hW _ _)

/-- Every node's weight is a real number, whatever the edge list. -/
theorem dinv_real (x1 : IVec S2x1600000 32) (n : S100000.Idx) : ∃ r : ℝ, dinvOf x1 n = r := by
  unfold dinvOf
  rw [select_apply, cmpf_apply, Cert.ReferenceIdeal.RefValue.hrsqrt_apply,
    broadcastInDim_apply _ bcast_S_S100000 _ n (fun a => a.elim0) (fun a => a.elim0),
    broadcastInDim_apply _ bcast_S_S100000 _ n (fun a => a.elim0) (fun a => a.elim0)]
  rw [constant_apply, Ideal.ofBits_zero_f32]
  exact Cert.Algebra.weight_real _ _ ⟨0, by
    show (id (constant (F := Ideal) S_ .f32 0x00000000#32)) (fun a => a.elim0) = _
    rw [id, constant_apply, Ideal.ofBits_zero_f32, EReal.coe_zero]⟩

/-! ## The projected rows agree: a product of three real matrices associates -/

theorem proj_eq (x0 : FVec Ideal S100000x256 .f32) (x2 : FVec Ideal S128x256 .f32) (x3 : FVec Ideal S128x128 .f32)
    (h0 : ∀ i, ∃ r : ℝ, x0 i = r) (h2 : ∀ i, ∃ r : ℝ, x2 i = r) (h3 : ∀ i, ∃ r : ℝ, x3 i = r) :
    Cert.ReferenceIdeal.Read.val_main_v3 (F := Ideal) x0 x2 x3 = Cert.Spec.proj x0 (weightsOf x2 x3) := by
  funext n
  rw [Cert.ReferenceIdeal.Read.val_main_v3_apply]
  unfold Cert.Spec.proj
  have hL : ∀ k : Fin 128, Cert.ReferenceIdeal.Read.val_main_v1 (F := Ideal) x0 x2 (Cert.ReferenceIdeal.Read.lidx_main_v3 n k)
      = ∑ l : Fin 256, x0 (ix2 (n0 := 100000) (n1 := 256) (n 0) l) * x2 (ix2 (n0 := 128) (n1 := 256) k l) := fun k => by
    rw [Cert.ReferenceIdeal.Read.val_main_v1_apply]
    refine Finset.sum_congr rfl fun l _ => ?_
    rw [Cert.ReferenceIdeal.Read.val_main_v0_apply]
    exact congrArg₂ (· * ·)
      (congrArg x0 (funext fun a => by
        match a with
        | ⟨0, _⟩ => rfl
        | ⟨1, _⟩ => rfl))
      (congrArg x2 (funext fun a => by
        match a with
        | ⟨0, _⟩ => rfl
        | ⟨1, _⟩ => rfl))
  have hR : ∀ k : Fin 128, Cert.ReferenceIdeal.Read.val_main_v2 (F := Ideal) x3 (Cert.ReferenceIdeal.Read.ridx_main_v3 n k)
      = x3 (ix2 (n0 := 128) (n1 := 128) (n 1) k) := fun k => by
    rw [Cert.ReferenceIdeal.Read.val_main_v2_apply]
    exact congrArg x3 (funext fun a => by
      match a with
      | ⟨0, _⟩ => rfl
      | ⟨1, _⟩ => rfl)
  refine (Finset.sum_congr rfl fun k _ => congrArg₂ (· * ·) (hL k) (hR k)).trans ?_
  refine Eq.trans ?_ (Finset.sum_congr rfl fun l _ =>
    congrArg (x0 (ix2 (n0 := 100000) (n1 := 256) (n 0) l) * ·) (Cert.KernelIdeal.Weights.weights_apply x2 x3 l (n 1)).symm)
  exact (Cert.Algebra.dot_assoc (fun l : Fin 256 => x0 (ix2 (n0 := 100000) (n1 := 256) (n 0) l))
    (fun (l : Fin 256) (k : Fin 128) => x2 (ix2 (n0 := 128) (n1 := 256) k l))
    (fun k : Fin 128 => x3 (ix2 (n0 := 128) (n1 := 128) (n 1) k)) (fun l => h0 _) (fun l k => h2 _) (fun k => h3 _)).symm

/-! ## The sums agree: a real weight moves across the sum over the edges that land on a row -/

/-- The weights' column holds node `n`'s weight at (n, 0). -/
theorem col_read (x1 : IVec S2x1600000 32) (n : Fin 100000) :
    dinvCol x1 (ix2 (n0 := 100000) (n1 := 1) n 0) = dinvOf x1 (ix1 (n := 100000) n) := by
  unfold dinvCol
  exact Cert.KernelIdeal.Region1.shapeCast_vector_column_apply (dinvOf x1) shapeCasts_S100000_S100000x1 n 0

/-- For any projected rows `H`, weights `D`, target numbers `dst` and fetch numbers `fe`, `fe'`: if the rows and
    the weights are real and every update that lands on row `n` fetches, through `fe'`, row `n` itself, then the sums
    scaled by the row's weight afterwards are the sums of the terms scaled by the weight fetched through `fe'`. -/
theorem sums_generic (dst fe fe' : IVec S1700000x1 32) (H : S100000x128.Idx → EReal) (D : S100000.Idx → EReal)
    (hH : ∀ n, ∃ r : ℝ, H n = r) (hD : ∀ n, ∃ r : ℝ, D n = r)
    (hfe' : ∀ j i, (rowsScatter 100000 128 1700000 scatter_S100000x128_S1700000x1_S1700000x128_1_0_0_1.wf).resultIdx? j dst = some i →
      rowOf fe' j = ⟨(i 0).val, idx2_lt0 i⟩)
    (i : S100000x128.Idx) :
    Ideal.hostScatterAdd (rowsScatter 100000 128 1700000 scatter_S100000x128_S1700000x1_S1700000x128_1_0_0_1.wf) (fun _ => (0 : EReal)) dst
        (fun j => H (ix2 (n0 := 100000) (n1 := 128) (rowOf fe j) ⟨(j 1).val, idx2_lt1 j⟩) * D (ix1 (n := 100000) (rowOf fe j))) i
      * D (ix1 (n := 100000) ⟨(i 0).val, idx2_lt0 i⟩)
    = Ideal.hostScatterAdd (rowsScatter 100000 128 1700000 scatter_S100000x128_S1700000x1_S1700000x128_1_0_0_1.wf) (fun _ => (0 : EReal)) dst
        (fun j => H (ix2 (n0 := 100000) (n1 := 128) (rowOf fe j) ⟨(j 1).val, idx2_lt1 j⟩)
          * (D (ix1 (n := 100000) (rowOf fe j)) * D (ix1 (n := 100000) (rowOf fe' j)))) i :=
  Cert.Algebra.scatter_scaled _ dst
    (fun j => H (ix2 (n0 := 100000) (n1 := 128) (rowOf fe j) ⟨(j 1).val, idx2_lt1 j⟩))
    (fun j => D (ix1 (n := 100000) (rowOf fe j)))
    (fun j => D (ix1 (n := 100000) (rowOf fe' j)))
    (fun i => D (ix1 (n := 100000) ⟨(i 0).val, idx2_lt0 i⟩))
    (fun j => hH _) (fun j => hD _) (fun i => hD _)
    (fun j i h => by show D (ix1 (n := 100000) (rowOf fe' j)) = _; rw [hfe' j i h]) i

/-! ## The results agree -/

/-- THE TWO RESULTS ARE ONE FUNCTION of the five arguments, when the features and the two weight matrices hold real
    numbers (the edge list and the bias row may hold anything). -/
theorem agree (x0 : FVec Ideal S100000x256 .f32) (x1 : IVec S2x1600000 32) (x2 : FVec Ideal S128x256 .f32)
    (x3 : FVec Ideal S128x128 .f32) (x4 : FVec Ideal S128 .f32)
    (h0 : ∀ i, ∃ r : ℝ, x0 i = r) (h2 : ∀ i, ∃ r : ℝ, x2 i = r) (h3 : ∀ i, ∃ r : ℝ, x3 i = r) :
    resultOf x0 x1 x2 x3 x4 = Cert.ReferenceIdeal.Read.val_main_v57 (F := Ideal) x0 x1 x2 x3 x4 := by
  rw [Cert.ReferenceIdeal.RefValue.result_eq]
  unfold resultOf Cert.Spec.finalize
  refine congrArg (Cert.Spec.normalize _) (funext fun i => ?_)
  rw [Cert.ReferenceIdeal.RefValue.biased_apply]
  refine congrArg₂ (· + ·) ?_ rfl
  rw [aggOf_eq, Cert.ReferenceIdeal.RefValue.sums_eq]
  rw [col_read x1 (i 0)]
  have h31 : ∀ j i, (rowsScatter 100000 128 1700000 scatter_S100000x128_S1700000x1_S1700000x128_1_0_0_1.wf).resultIdx? j (dstCol x1) = some i →
      rowOf (Cert.ReferenceIdeal.Read.val_main_v31 (F := Ideal) x1) j = ⟨(i 0).val, idx2_lt0 i⟩ :=
    fun j i h => (rowOf_eq _ _).symm.trans (Cert.ReferenceIdeal.RefValue.target_row x1 j i h)
  rw [proj_eq x0 x2 x3 h0 h2 h3, dst_eq, fetch39_eq, fetch24_eq, dinv_eq]
  simp only [rowOf_eq]
  exact sums_generic (dstCol x1) (fetchOf x1) (Cert.ReferenceIdeal.Read.val_main_v31 (F := Ideal) x1)
    (Cert.Spec.proj x0 (weightsOf x2 x3)) (dinvOf x1)
    (proj_real x0 (weightsOf x2 x3) h0 (weights_real x2 x3 h2 h3)) (dinv_real x1) h31 i

end Cert.Bridge

end
-- ==== Proof.lean ====
/-
  The certificate of a graph-convolution layer: a linear projection of node features, message passing with symmetric
  degree normalization over the given edges plus one self-loop per node, a bias, and a row-wise L2 normalization.

  The kernel program folds the two projection matrices into one and multiplies the features by it in a first region;
  on the host it computes every node's weight `1 / sqrt (degree)`, scales each projected row by its node's weight,
  fetches the scaled row of every edge's source and adds the fetched rows up per target; a second region multiplies
  every sum by the target's weight, adds the bias and normalizes each row.  The reference multiplies the features by
  the two matrices one after the other, scales every fetched row by both end points' weights before adding up, adds
  the bias and normalizes.

  At the extended reals the two are one function of the arguments: the product of three real matrices associates,
  and the target's weight — a real number, the same for all edges that land on one row, because an edge landing on
  row n has target number n — moves across the finite sum.  That the features and the two matrices hold real numbers
  is the precondition; the edge list is arbitrary (a number that is not a node is dropped by the sums and clamped by
  the fetches, alike in both programs) and so is the bias.

  The frames: each kernel program's run over its six segments; the reference's run of its host operations.  The
  idealization rewrote no operation, so there is nothing to preserve.
-/
import proofs.«125581_j45122926412247_2_alg».proof.Defs
import proofs.«125581_j45122926412247_2_alg».proof.Proof.Gen.Kernel
import proofs.«125581_j45122926412247_2_alg».proof.Proof.Gen.Kernel.Skeleton
import proofs.«125581_j45122926412247_2_alg».proof.Proof.Gen.Kernel.Launch
import proofs.«125581_j45122926412247_2_alg».proof.Proof.Gen.Kernel.Points
import proofs.«125581_j45122926412247_2_alg».proof.Proof.Gen.Kernel.Frame
import proofs.«125581_j45122926412247_2_alg».proof.Proof.Gen.KernelIdeal
import proofs.«125581_j45122926412247_2_alg».proof.Proof.Gen.KernelIdeal.Skeleton
import proofs.«125581_j45122926412247_2_alg».proof.Proof.Gen.KernelIdeal.Launch
import proofs.«125581_j45122926412247_2_alg».proof.Proof.Gen.KernelIdeal.Points
import proofs.«125581_j45122926412247_2_alg».proof.Proof.Gen.KernelIdeal.Frame
import proofs.«125581_j45122926412247_2_alg».proof.Proof.Gen.ReferenceIdeal
import proofs.«125581_j45122926412247_2_alg».proof.Proof.Gen.Pre_finite_inputs
import proofs.«125581_j45122926412247_2_alg».proof.Proof.RefRun
import proofs.«125581_j45122926412247_2_alg».proof.Proof.RefRead
import proofs.«125581_j45122926412247_2_alg».proof.Proof.RunValue
import proofs.«125581_j45122926412247_2_alg».proof.Proof.KernelValue
import proofs.«125581_j45122926412247_2_alg».proof.Proof.Finite
import proofs.«125581_j45122926412247_2_alg».proof.Proof.Bridge
import Idealize.ShloMosaic.Adequacy
import Idealize.ShloMosaic.Init

noncomputable section

namespace Cert.Proof

open Idealize.ShloMosaic Idealize.SL.Sem

/-- The word-level kernel program runs and leaves its arguments alone. -/
theorem frame_kernel : Cert.frame_Kernel (hKernel := Cert.Kernel.Gen.facts) (hPre_finite_inputs := Cert.Pre_finite_inputs.Gen.facts) :=
  fun m ρ _ => Cert.Kernel.Gen.frame m ρ

/-- So does the kernel program read at the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs — it is a line of host operations — and leaves its arguments alone. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments, real where the precondition says so, both programs end with the same
    result array: the kernel's at `resultOf` of its arguments, the reference's at its last stage, and the two agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.KernelValue.resultOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.KernelValue.value m ρ c), (h c).2⟩)
      (Cert.KernelIdeal.RunValue.run m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v57_eq, (hagree c).1, (hagree c).2.1, (hagree c).2.2.1, (hagree c).2.2.2.1,
      (hagree c).2.2.2.2]
    obtain ⟨r0, r2, r3⟩ := Cert.KernelIdeal.Finite.real_args m hpre c
    exact (Cert.Bridge.agree _ _ _ _ _ r0 r2 r3).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
